-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S32x1024x1024 : Shape := ⟨3, ![32, 1024, 1024]⟩
abbrev S128x512 : Shape := ⟨2, ![128, 512]⟩
abbrev S512 : Shape := ⟨1, ![512]⟩
abbrev S3x512x512 : Shape := ⟨3, ![3, 512, 512]⟩
abbrev S3x512 : Shape := ⟨2, ![3, 512]⟩
abbrev S512x256 : Shape := ⟨2, ![512, 256]⟩
abbrev S256 : Shape := ⟨1, ![256]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg9 : FVec F S3x512 .f32) (main_arg11 : FVec F S256 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_cst_22 : FVec F S_ .f32 := constant S_ .f32 0x00000000#32
  let main_v59 : FVec F S3x512 .f32 := broadcastInDim S3x512 ![] bcast_S_S3x512 main_cst_22
  let main_v60 : IVec S3x512 1 := cmpf .oge main_arg9 main_v59
  let main_c_23 : IVec S_ 1 := constantI S_ 1 1#1
  let main_v61 : IVec S_ 1 := (fun x v => Host.reduce IntOp.andi x v reducesTo_S3x512_S_d0_1 h_S_) main_v60 main_c_23
  let main_v62 : IVec S_ 1 := andi main_v58 main_v61
  main_v62

def fn_part2 {F : FTy → Type} [FloatOps F] (main_arg7 : FVec F S3x512 .f32) (main_arg8 : FVec F S3x512 .f32) (main_arg9 : FVec F S3x512 .f32) (main_arg10 : FVec F S512x256 .f32) (main_arg11 : FVec F S256 .f32) (main_v33 : IVec S_ 1) : IVec S_ 1 :=
  let main_v34 : FVec F S3x512 .f32 := Host.absf main_arg7
  let main_cst_12 : FVec F S_ .f32 := constant S_ .f32 0x7F800000#32
  let main_v35 : FVec F S3x512 .f32 := broadcastInDim S3x512 ![] bcast_S_S3x512 main_cst_12
  let main_v36 : IVec S3x512 1 := cmpf .olt main_v34 main_v35
  let main_c_13 : IVec S_ 1 := constantI S_ 1 1#1
  let main_v37 : IVec S_ 1 := (fun x v => Host.reduce IntOp.andi x v reducesTo_S3x512_S_d0_1 h_S_) main_v36 main_c_13
  let main_v38 : IVec S_ 1 := andi main_v33 main_v37
  let main_v39 : FVec F S3x512 .f32 := Host.absf main_arg8
  let main_cst_14 : FVec F S_ .f32 := constant S_ .f32 0x7F800000#32
  let main_v40 : FVec F S3x512 .f32 := broadcastInDim S3x512 ![] bcast_S_S3x512 main_cst_14
  let main_v41 : IVec S3x512 1 := cmpf .olt main_v39 main_v40
  let main_c_15 : IVec S_ 1 := constantI S_ 1 1#1
  let main_v42 : IVec S_ 1 := (fun x v => Host.reduce IntOp.andi x v reducesTo_S3x512_S_d0_1 h_S_) main_v41 main_c_15
  let main_v43 : IVec S_ 1 := andi main_v38 main_v42
  let main_v44 : FVec F S3x512 .f32 := Host.absf main_arg9
  let main_cst_16 : FVec F S_ .f32 := constant S_ .f32 0x7F800000#32
  let main_v45 : FVec F S3x512 .f32 := broadcastInDim S3x512 ![] bcast_S_S3x512 main_cst_16
  let main_v46 : IVec S3x512 1 := cmpf .olt main_v44 main_v45
  let main_c_17 : IVec S_ 1 := constantI S_ 1 1#1
  let main_v47 : IVec S_ 1 := (fun x v => Host.reduce IntOp.andi x v reducesTo_S3x512_S_d0_1 h_S_) main_v46 main_c_17
  let main_v48 : IVec S_ 1 := andi main_v43 main_v47
  let main_v49 : FVec F S512x256 .f32 := Host.absf main_arg10
  let main_cst_18 : FVec F S_ .f32 := constant S_ .f32 0x7F800000#32
  let main_v50 : FVec F S512x256 .f32 := broadcastInDim S512x256 ![] bcast_S_S512x256 main_cst_18
  fn_part3 (F := F) main_arg9 main_arg11 main_v48 main_v49 main_v50

def fn_part1 {F : FTy → Type} [FloatOps F] (main_arg4 : FVec F S3x512x512 .f32) (main_arg5 : FVec F S3x512 .f32) (main_arg6 : FVec F S3x512 .f32) (main_arg7 : FVec F S3x512 .f32) (main_arg8 : FVec F S3x512 .f32) (main_arg9 : FVec F S3x512 .f32) (main_arg10 : FVec F S512x256 .f32) (main_arg11 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S3x512x512 .f32 := Host.absf main_arg4
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S3x512 .f32 := Host.absf main_arg5
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S3x512 .f32 := Host.absf main_arg6
  let main_cst_10 : FVec F S_ .f32 := constant S_ .f32 0x7F800000#32
  let main_v30 : FVec F S3x512 .f32 := broadcastInDim S3x512 ![] bcast_S_S3x512 main_cst_10
  let main_v31 : IVec S3x512 1 := cmpf .olt main_v29 main_v30
  let main_c_11 : IVec S_ 1 := constantI S_ 1 1#1
  let main_v32 : IVec S_ 1 := (fun x v => Host.reduce IntOp.andi x v reducesTo_S3x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x1024x128 .f32) (main_arg1 : FVec F S32x1024x1024 .f32) (main_arg2 : FVec F S128x512 .f32) (main_arg3 : FVec F S512 .f32) (main_arg4 : FVec F S3x512x512 .f32) (main_arg5 : FVec F S3x512 .f32) (main_arg6 : FVec F S3x512 .f32) (main_arg7 : FVec F S3x512 .f32) (main_arg8 : FVec F S3x512 .f32) (main_arg9 : FVec F S3x512 .f32) (main_arg10 : FVec F S512x256 .f32) (main_arg11 : FVec F S256 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_v13 main_v16
-- ==== Kernel.lean ====
abbrev S32x1024x128 : Shape := ⟨3, ![32, 1024, 128]⟩
abbrev S32x1024x1024 : Shape := ⟨3, ![32, 1024, 1024]⟩
abbrev S128x512 : Shape := ⟨2, ![128, 512]⟩
abbrev S512 : Shape := ⟨1, ![512]⟩
abbrev S3x512x512 : Shape := ⟨3, ![3, 512, 512]⟩
abbrev S3x512 : Shape := ⟨2, ![3, 512]⟩
abbrev S512x256 : Shape := ⟨2, ![512, 256]⟩
abbrev S256 : Shape := ⟨1, ![256]⟩
abbrev S_ : Shape := ⟨0, ![]⟩
abbrev S1x512 : Shape := ⟨2, ![1, 512]⟩
abbrev S1x256 : Shape := ⟨2, ![1, 256]⟩
abbrev S32x1024x256 : Shape := ⟨3, ![32, 1024, 256]⟩
abbrev S1x1024x128 : Shape := ⟨3, ![1, 1024, 128]⟩
abbrev S1x1024x1024 : Shape := ⟨3, ![1, 1024, 1024]⟩
abbrev S1x1024x256 : Shape := ⟨3, ![1, 1024, 256]⟩
abbrev S1024x512 : Shape := ⟨2, ![1024, 512]⟩
abbrev S1024x1024 : Shape := ⟨2, ![1024, 1024]⟩
abbrev S1024x128 : Shape := ⟨2, ![1024, 128]⟩
abbrev S1x512x512 : Shape := ⟨3, ![1, 512, 512]⟩
abbrev S512x512 : Shape := ⟨2, ![512, 512]⟩
abbrev S1024x256 : Shape := ⟨2, ![1024, 256]⟩

abbrev nBuf : Space → Nat
  | .hbm => 22
  | .vmem => 16
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S128x512, .f32⟩
  | .hbm, ⟨3, _⟩ => ⟨S512, .f32⟩
  | .hbm, ⟨4, _⟩ => ⟨S3x512x512, .f32⟩
  | .hbm, ⟨5, _⟩ => ⟨S3x512, .f32⟩
  | .hbm, ⟨6, _⟩ => ⟨S3x512, .f32⟩
  | .hbm, ⟨7, _⟩ => ⟨S3x512, .f32⟩
  | .hbm, ⟨8, _⟩ => ⟨S3x512, .f32⟩
  | .hbm, ⟨9, _⟩ => ⟨S3x512, .f32⟩
  | .hbm, ⟨10, _⟩ => ⟨S512x256, .f32⟩
  | .hbm, ⟨11, _⟩ => ⟨S256, .f32⟩
  | .hbm, ⟨12, _⟩ => ⟨S_, .f32⟩
  | .hbm, ⟨13, _⟩ => ⟨S3x512, .f32⟩
  | .hbm, ⟨14, _⟩ => ⟨S3x512, .f32⟩
  | .hbm, ⟨15, _⟩ => ⟨S3x512, .f32⟩
  | .hbm, ⟨16, _⟩ => ⟨S3x512, .f32⟩
  | .hbm, ⟨17, _⟩ => ⟨S3x512, .f32⟩
  | .hbm, ⟨18, _⟩ => ⟨S3x512, .f32⟩
  | .hbm, ⟨19, _⟩ => ⟨S1x512, .f32⟩
  | .hbm, ⟨20, _⟩ => ⟨S1x256, .f32⟩
  | .hbm, ⟨21, _⟩ => ⟨S32x1024x256, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S128x512, .f32⟩
  | .local _ .vmem, ⟨5, _⟩ => ⟨S1x512, .f32⟩
  | .local _ .vmem, ⟨6, _⟩ => ⟨S3x512x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S512x256, .f32⟩
  | .local _ .vmem, ⟨11, _⟩ => ⟨S1x256, .f32⟩
  | .local _ .vmem, ⟨12, _⟩ => ⟨S1x1024x256, .f32⟩
  | .local _ .vmem, ⟨13, _⟩ => ⟨S1x1024x256, .f32⟩
  | .local _ .vmem, ⟨14, _⟩ => ⟨S1024x512, .f32⟩
  | .local _ .vmem, ⟨15, _⟩ => ⟨S1024x1024, .bf16⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S3x512 : S_.BroadcastsInDim S3x512 (![] : Fin 0 → Fin S3x512.rank)
  shapeCasts_S512_S1x512 : S512.ShapeCasts S1x512
  shapeCasts_S256_S1x256 : S256.ShapeCasts S1x256
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  inb_S3x512_S1x512_0_0 : ∀ a, (![0, 0] : Fin 2 → Nat) a + S1x512.size a ≤ S3x512.size a
  shapeCasts_S1x512_S512 : S1x512.ShapeCasts S512
  inb_S3x512x512_S1x512x512_1_0_0 : ∀ a, (![1, 0, 0] : Fin 3 → Nat) a + S1x512x512.size a ≤ S3x512x512.size a
  inb_S3x512_S1x512_1_0 : ∀ a, (![1, 0] : Fin 2 → Nat) a + S1x512.size a ≤ S3x512.size a
  inb_S3x512x512_S1x512x512_2_0_0 : ∀ a, (![2, 0, 0] : Fin 3 → Nat) a + S1x512x512.size a ≤ S3x512x512.size a
  inb_S3x512_S1x512_2_0 : ∀ a, (![2, 0] : Fin 2 → Nat) a + S1x512.size a ≤ S3x512.size a
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x1024x128.size a
  hwx0_0 : ∀ i : grid0.Coords, EltTy.bits .f32 = 32 ∨ (Rect.block (s := S32x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512x512.size a ≤ S3x512x512.size a
  hwx0_4 : ∀ i : grid0.Coords, EltTy.bits .f32 = 32 ∨ (Rect.block (s := S3x512x512) S3x512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x512.size a ≤ S3x512.size a
  hwx0_5 : ∀ i : grid0.Coords, EltTy.bits .f32 = 32 ∨ (Rect.block (s := S3x512) S3x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x512.size a ≤ S3x512.size a
  hwx0_6 : ∀ i : grid0.Coords, EltTy.bits .f32 = 32 ∨ (Rect.block (s := S3x512) S3x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x512.size a ≤ S3x512.size a
  hwx0_7 : ∀ i : grid0.Coords, EltTy.bits .f32 = 32 ∨ (Rect.block (s := S3x512) S3x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x256.size a ≤ S32x1024x256.size a
  hwx0_10 : ∀ i : grid0.Coords, EltTy.bits .f32 = 32 ∨ (Rect.block (s := S32x1024x256) S1x1024x256.size (cc0_transform_10 i) (hinb0_10 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S3x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S3x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x1024x1024 : Shape := ⟨3, ![32, 1024, 1024]⟩
abbrev S128x512 : Shape := ⟨2, ![128, 512]⟩
abbrev S512 : Shape := ⟨1, ![512]⟩
abbrev S3x512x512 : Shape := ⟨3, ![3, 512, 512]⟩
abbrev S3x512 : Shape := ⟨2, ![3, 512]⟩
abbrev S512x256 : Shape := ⟨2, ![512, 256]⟩
abbrev S256 : Shape := ⟨1, ![256]⟩
abbrev S32x1024x512 : Shape := ⟨3, ![32, 1024, 512]⟩
abbrev S1x1x512 : Shape := ⟨3, ![1, 1, 512]⟩
abbrev S1x512x512 : Shape := ⟨3, ![1, 512, 512]⟩
abbrev S512x512 : Shape := ⟨2, ![512, 512]⟩
abbrev S1x512 : Shape := ⟨2, ![1, 512]⟩
abbrev S_ : Shape := ⟨0, ![]⟩
abbrev S32x1024x256 : Shape := ⟨3, ![32, 1024, 256]⟩
abbrev S1x1x256 : Shape := ⟨3, ![1, 1, 256]⟩

abbrev nBuf : Space → Nat
  | .hbm => 128
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S128x512, .f32⟩
  | .hbm, ⟨3, _⟩ => ⟨S512, .f32⟩
  | .hbm, ⟨4, _⟩ => ⟨S3x512x512, .f32⟩
  | .hbm, ⟨5, _⟩ => ⟨S3x512, .f32⟩
  | .hbm, ⟨6, _⟩ => ⟨S3x512, .f32⟩
  | .hbm, ⟨7, _⟩ => ⟨S3x512, .f32⟩
  | .hbm, ⟨8, _⟩ => ⟨S3x512, .f32⟩
  | .hbm, ⟨9, _⟩ => ⟨S3x512, .f32⟩
  | .hbm, ⟨10, _⟩ => ⟨S512x256, .f32⟩
  | .hbm, ⟨11, _⟩ => ⟨S256, .f32⟩
  | .hbm, ⟨12, _⟩ => ⟨S32x1024x512, .f32⟩
  | .hbm, ⟨13, _⟩ => ⟨S1x1x512, .f32⟩
  | .hbm, ⟨14, _⟩ => ⟨S32x1024x512, .f32⟩
  | .hbm, ⟨15, _⟩ => ⟨S32x1024x512, .f32⟩
  | .hbm, ⟨16, _⟩ => ⟨S1x512x512, .f32⟩
  | .hbm, ⟨17, _⟩ => ⟨S512x512, .f32⟩
  | .hbm, ⟨18, _⟩ => ⟨S32x1024x512, .f32⟩
  | .hbm, ⟨19, _⟩ => ⟨S32x1024x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S32x1024x512, .f32⟩
  | .hbm, ⟨24, _⟩ => ⟨S32x1024x512, .f32⟩
  | .hbm, ⟨25, _⟩ => ⟨S_, .f32⟩
  | .hbm, ⟨26, _⟩ => ⟨S32x1024x512, .f32⟩
  | .hbm, ⟨27, _⟩ => ⟨S32x1024x512, .f32⟩
  | .hbm, ⟨28, _⟩ => ⟨S1x512, .f32⟩
  | .hbm, ⟨29, _⟩ => ⟨S512, .f32⟩
  | .hbm, ⟨30, _⟩ => ⟨S1x1x512, .f32⟩
  | .hbm, ⟨31, _⟩ => ⟨S32x1024x512, .f32⟩
  | .hbm, ⟨32, _⟩ => ⟨S32x1024x512, .f32⟩
  | .hbm, ⟨33, _⟩ => ⟨S1x512, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S1x1x512, .f32⟩
  | .hbm, ⟨40, _⟩ => ⟨S32x1024x512, .f32⟩
  | .hbm, ⟨41, _⟩ => ⟨S32x1024x512, .f32⟩
  | .hbm, ⟨42, _⟩ => ⟨S1x512, .f32⟩
  | .hbm, ⟨43, _⟩ => ⟨S512, .f32⟩
  | .hbm, ⟨44, _⟩ => ⟨S1x1x512, .f32⟩
  | .hbm, ⟨45, _⟩ => ⟨S32x1024x512, .f32⟩
  | .hbm, ⟨46, _⟩ => ⟨S32x1024x512, .f32⟩
  | .hbm, ⟨47, _⟩ => ⟨S1x512, .f32⟩
  | .hbm, ⟨48, _⟩ => ⟨S512, .f32⟩
  | .hbm, ⟨49, _⟩ => ⟨S1x1x512, .f32⟩
  | .hbm, ⟨50, _⟩ => ⟨S32x1024x512, .f32⟩
  | .hbm, ⟨51, _⟩ => ⟨S32x1024x512, .f32⟩
  | .hbm, ⟨52, _⟩ => ⟨S1x512x512, .f32⟩
  | .hbm, ⟨53, _⟩ => ⟨S512x512, .f32⟩
  | .hbm, ⟨54, _⟩ => ⟨S32x1024x512, .f32⟩
  | .hbm, ⟨55, _⟩ => ⟨S32x1024x512, .f32⟩
  | .hbm, ⟨56, _⟩ => ⟨S1x512, .f32⟩
  | .hbm, ⟨57, _⟩ => ⟨S512, .f32⟩
  | .hbm, ⟨58, _⟩ => ⟨S1x1x512, .f32⟩
  | .hbm, ⟨59, _⟩ => ⟨S32x1024x512, .f32⟩
  | .hbm, ⟨60, _⟩ => ⟨S32x1024x512, .f32⟩
  | .hbm, ⟨61, _⟩ => ⟨S_, .f32⟩
  | .hbm, ⟨62, _⟩ => ⟨S32x1024x512, .f32⟩
  | .hbm, ⟨63, _⟩ => ⟨S32x1024x512, .f32⟩
  | .hbm, ⟨64, _⟩ => ⟨S1x512, .f32⟩
  | .hbm, ⟨65, _⟩ => ⟨S512, .f32⟩
  | .hbm, ⟨66, _⟩ => ⟨S1x1x512, .f32⟩
  | .hbm, ⟨67, _⟩ => ⟨S32x1024x512, .f32⟩
  | .hbm, ⟨68, _⟩ => ⟨S32x1024x512, .f32⟩
  | .hbm, ⟨69, _⟩ => ⟨S1x512, .f32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S512, .f32⟩
  | .hbm, ⟨75, _⟩ => ⟨S1x1x512, .f32⟩
  | .hbm, ⟨76, _⟩ => ⟨S32x1024x512, .f32⟩
  | .hbm, ⟨77, _⟩ => ⟨S32x1024x512, .f32⟩
  | .hbm, ⟨78, _⟩ => ⟨S1x512, .f32⟩
  | .hbm, ⟨79, _⟩ => ⟨S512, .f32⟩
  | .hbm, ⟨80, _⟩ => ⟨S1x1x512, .f32⟩
  | .hbm, ⟨81, _⟩ => ⟨S32x1024x512, .f32⟩
  | .hbm, ⟨82, _⟩ => ⟨S32x1024x512, .f32⟩
  | .hbm, ⟨83, _⟩ => ⟨S1x512, .f32⟩
  | .hbm, ⟨84, _⟩ => ⟨S512, .f32⟩
  | .hbm, ⟨85, _⟩ => ⟨S1x1x512, .f32⟩
  | .hbm, ⟨86, _⟩ => ⟨S32x1024x512, .f32⟩
  | .hbm, ⟨87, _⟩ => ⟨S32x1024x512, .f32⟩
  | .hbm, ⟨88, _⟩ => ⟨S1x512x512, .f32⟩
  | .hbm, ⟨89, _⟩ => ⟨S512x512, .f32⟩
  | .hbm, ⟨90, _⟩ => ⟨S32x1024x512, .f32⟩
  | .hbm, ⟨91, _⟩ => ⟨S32x1024x512, .f32⟩
  | .hbm, ⟨92, _⟩ => ⟨S1x512, .f32⟩
  | .hbm, ⟨93, _⟩ => ⟨S512, .f32⟩
  | .hbm, ⟨94, _⟩ => ⟨S1x1x512, .f32⟩
  | .hbm, ⟨95, _⟩ => ⟨S32x1024x512, .f32⟩
  | .hbm, ⟨96, _⟩ => ⟨S32x1024x512, .f32⟩
  | .hbm, ⟨97, _⟩ => ⟨S_, .f32⟩
  | .hbm, ⟨98, _⟩ => ⟨S32x1024x512, .f32⟩
  | .hbm, ⟨99, _⟩ => ⟨S32x1024x512, .f32⟩
  | .hbm, ⟨100, _⟩ => ⟨S1x512, .f32⟩
  | .hbm, ⟨101, _⟩ => ⟨S512, .f32⟩
  | .hbm, ⟨102, _⟩ => ⟨S1x1x512, .f32⟩
  | .hbm, ⟨103, _⟩ => ⟨S32x1024x512, .f32⟩
  | .hbm, ⟨104, _⟩ => ⟨S32x1024x512, .f32⟩
  | .hbm, ⟨105, _⟩ => ⟨S1x512, .f32⟩
  | .hbm, ⟨106, _⟩ => ⟨S512, .f32⟩
  | .hbm, ⟨107, _⟩ => ⟨S_, .f32⟩
  | .hbm, ⟨108, _⟩ => ⟨S512, .f32⟩
  | .hbm, ⟨109, _⟩ => ⟨S512, .f32⟩
  | .hbm, ⟨110, _⟩ => ⟨S512, .f32⟩
  | .hbm, ⟨111, _⟩ => ⟨S1x1x512, .f32⟩
  | .hbm, ⟨112, _⟩ => ⟨S32x1024x512, .f32⟩
  | .hbm, ⟨113, _⟩ => ⟨S32x1024x512, .f32⟩
  | .hbm, ⟨114, _⟩ => ⟨S1x512, .f32⟩
  | .hbm, ⟨115, _⟩ => ⟨S512, .f32⟩
  | .hbm, ⟨116, _⟩ => ⟨S1x1x512, .f32⟩
  | .hbm, ⟨117, _⟩ => ⟨S32x1024x512, .f32⟩
  | .hbm, ⟨118, _⟩ => ⟨S32x1024x512, .f32⟩
  | .hbm, ⟨119, _⟩ => ⟨S1x512, .f32⟩
  | .hbm, ⟨120, _⟩ => ⟨S512, .f32⟩
  | .hbm, ⟨121, _⟩ => ⟨S1x1x512, .f32⟩
  | .hbm, ⟨122, _⟩ => ⟨S32x1024x512, .f32⟩
  | .hbm, ⟨123, _⟩ => ⟨S32x1024x512, .f32⟩
  | .hbm, ⟨124, _⟩ => ⟨S32x1024x256, .f32⟩
  | .hbm, ⟨125, _⟩ => ⟨S1x1x256, .f32⟩
  | .hbm, ⟨126, _⟩ => ⟨S32x1024x256, .f32⟩
  | .hbm, ⟨127, _⟩ => ⟨S32x1024x256, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_cst : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_cst : Ref sig .tc := ⟨.hbm, 61, rfl⟩
abbrev main_call1_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_0 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_call2_cst : Ref sig .tc := ⟨.hbm, 97, rfl⟩
abbrev main_call2_v0 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_1 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  bcast_S_S32x1024x512 : S_.BroadcastsInDim S32x1024x512 (![] : Fin 0 → Fin S32x1024x512.rank)
  bcast_S_S512 : S_.BroadcastsInDim S512 (![] : Fin 0 → Fin S512.rank)
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  dot_S32x1024x128_S128x512_S32x1024x512_2_0_01_1_n_n_wf : DotDims.WF S32x1024x128 S128x512 S32x1024x512 [2] [0] [0, 1] [1] [] []
  dot_S32x1024x512_S512x512_S32x1024x512_2_0_01_1_n_n_wf : DotDims.WF S32x1024x512 S512x512 S32x1024x512 [2] [0] [0, 1] [1] [] []
  dot_S32x1024x1024_S32x1024x512_S32x1024x512_2_1_1_2_0_0_wf : DotDims.WF S32x1024x1024 S32x1024x512 S32x1024x512 [2] [1] [1] [2] [0] [0]
  dot_S32x1024x512_S512x256_S32x1024x256_2_0_01_1_n_n_wf : DotDims.WF S32x1024x512 S512x256 S32x1024x256 [2] [0] [0, 1] [1] [] []

variable [Facts₀]

def dot_S32x1024x128_S128x512_S32x1024x512_2_0_01_1_n_n : DotDims S32x1024x128 S128x512 S32x1024x512 where
  lhsContracting := [2]
  rhsContracting := [0]
  lhsNonContracting := [0, 1]
  rhsNonContracting := [1]
  lhsBatch := []
  rhsBatch := []
  wf := dot_S32x1024x128_S128x512_S32x1024x512_2_0_01_1_n_n_wf
def dot_S32x1024x512_S512x512_S32x1024x512_2_0_01_1_n_n : DotDims S32x1024x512 S512x512 S32x1024x512 where
  lhsContracting := [2]
  rhsContracting := [0]
  lhsNonContracting := [0, 1]
  rhsNonContracting := [1]
  lhsBatch := []
  rhsBatch := []
  wf := dot_S32x1024x512_S512x512_S32x1024x512_2_0_01_1_n_n_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf
def dot_S32x1024x512_S512x256_S32x1024x256_2_0_01_1_n_n : DotDims S32x1024x512 S512x256 S32x1024x256 where
  lhsContracting := [2]
  rhsContracting := [0]
  lhsNonContracting := [0, 1]
  rhsNonContracting := [1]
  lhsBatch := []
  rhsBatch := []
  wf := dot_S32x1024x512_S512x256_S32x1024x256_2_0_01_1_n_n_wf

class Facts : Prop extends Facts₀ where

variable [Facts]
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.GraphNet.lean ====
/-
  A graph network of three convolution layers on one graph, on the extended reals, in two spellings of its
  normalisation, and the law that joins them.

  For one graph with N nodes the network is: an input projection h = x·W_in + b_in; three times a graph convolution
  with rectifier, r = max(adj·(h·W) + b, 0), followed by a per-channel normalisation of r; and an output projection
  h·W_out + b_out. The normalisation of a channel with scale γ, shift β, mean μ and reciprocal deviation s is
  written either in the PLAIN form ((r − μ)·s)·γ + β, or in the FOLDED form r·a + b with a = γ·s and b = β − μ·a
  computed once per channel. On the reals the two forms are one affine function of r (distributivity); on the
  extended reals distributivity fails at the infinities, so the law is stated for REAL entries: when every argument
  entry is a real number every intermediate value is (sums, products, differences and maxima of reals are reals:
  LibRealEntries.lean, which also has the law for one entry), and the two networks agree entry by entry.
-/
import Idealize.ShloMosaic.PureOps.Ideal
import proofs.«103491_j5059471475382_2_alg».proof.Proof.LibRealEntries

noncomputable section

namespace GraphNet

open Finset Cert.LibRealEntries

/-! ## The layers, on matrices written as functions of row and column -/

variable {N D H O : ℕ}

/-- A matrix all of whose entries are real. -/
def RealMat {a b : ℕ} (h : Fin a → Fin b → EReal) : Prop := ∀ i j, IsReal (h i j)

/-- A vector all of whose entries are real. -/
def RealVec {a : ℕ} (v : Fin a → EReal) : Prop := ∀ i, IsReal (v i)

/-- A projection: x·W + b, the bias added to every row. -/
def proj {a k c : ℕ} (x : Fin a → Fin k → EReal) (W : Fin k → Fin c → EReal) (b : Fin c → EReal) : Fin a → Fin c → EReal :=
  fun n j => (∑ f, x n f * W f j) + b j

/-- A graph convolution with rectifier: max(adj·(h·W) + b, 0). -/
def conv (adj : Fin N → Fin N → EReal) (W : Fin H → Fin H → EReal) (b : Fin H → EReal) (h : Fin N → Fin H → EReal) :
    Fin N → Fin H → EReal :=
  fun n j => max ((∑ m, adj n m * ∑ k, h m k * W k j) + b j) 0

/-- The folded normalisation: one multiply-add per entry, r·a + b per channel. -/
def foldedNorm (a b : Fin H → EReal) (r : Fin N → Fin H → EReal) : Fin N → Fin H → EReal :=
  fun n j => r n j * a j + b j

/-- The plain normalisation: ((r − μ)·s)·γ + β per channel. -/
def plainNorm (γ β μ s : Fin H → EReal) (r : Fin N → Fin H → EReal) : Fin N → Fin H → EReal :=
  fun n j => (r n j - μ j) * s j * γ j + β j

theorem proj_real {a k c : ℕ} {x : Fin a → Fin k → EReal} {W : Fin k → Fin c → EReal} {b : Fin c → EReal}
    (hx : RealMat x) (hW : RealMat W) (hb : RealVec b) : RealMat (proj x W b) :=
  fun n j => (IsReal.sum _ _ fun f _ => (hx n f).mul (hW f j)).add (hb j)

theorem conv_real {adj : Fin N → Fin N → EReal} {W : Fin H → Fin H → EReal} {b : Fin H → EReal} {h : Fin N → Fin H → EReal}
    (hadj : RealMat adj) (hW : RealMat W) (hb : RealVec b) (hh : RealMat h) : RealMat (conv adj W b h) :=
  fun n j => ((IsReal.sum _ _ fun m _ => (hadj n m).mul (IsReal.sum _ _ fun k _ => (hh m k).mul (hW k j))).add (hb j)).max
    isReal_zero

theorem plainNorm_real {γ β μ s : Fin H → EReal} {r : Fin N → Fin H → EReal}
    (hγ : RealVec γ) (hβ : RealVec β) (hμ : RealVec μ) (hs : RealVec s) (hr : RealMat r) : RealMat (plainNorm γ β μ s r) :=
  fun n j => ((((hr n j).sub (hμ j)).mul (hs j)).mul (hγ j)).add (hβ j)

/-- On a real matrix the folded normalisation with a = γ·s, b = β − μ·(γ·s) is the plain one. -/
theorem foldedNorm_eq_plainNorm {γ β μ s : Fin H → EReal} {r : Fin N → Fin H → EReal}
    (hγ : RealVec γ) (hβ : RealVec β) (hμ : RealVec μ) (hs : RealVec s) (hr : RealMat r) :
    foldedNorm (fun j => γ j * s j) (fun j => β j - μ j * (γ j * s j)) r = plainNorm γ β μ s r :=
  funext fun n => funext fun j => folded_eq_plain (hr n j) (hγ j) (hβ j) (hμ j) (hs j)

/-! ## The two networks -/

/-- The network with the folded normalisation: per layer a scale row and a shift row. -/
def netFolded (x : Fin N → Fin D → EReal) (adj : Fin N → Fin N → EReal) (Win : Fin D → Fin H → EReal) (bin : Fin H → EReal)
    (Wg : Fin 3 → Fin H → Fin H → EReal) (bg a b : Fin 3 → Fin H → EReal) (Wout : Fin H → Fin O → EReal) (bout : Fin O → EReal) :
    Fin N → Fin O → EReal :=
  proj (foldedNorm (a 2) (b 2) (conv adj (Wg 2) (bg 2)
    (foldedNorm (a 1) (b 1) (conv adj (Wg 1) (bg 1)
      (foldedNorm (a 0) (b 0) (conv adj (Wg 0) (bg 0) (proj x Win bin))))))) Wout bout

/-- The network with the plain normalisation: per layer γ, β, μ and the reciprocal deviation s. -/
def netPlain (x : Fin N → Fin D → EReal) (adj : Fin N → Fin N → EReal) (Win : Fin D → Fin H → EReal) (bin : Fin H → EReal)
    (Wg : Fin 3 → Fin H → Fin H → EReal) (bg γ β μ s : Fin 3 → Fin H → EReal) (Wout : Fin H → Fin O → EReal) (bout : Fin O → EReal) :
    Fin N → Fin O → EReal :=
  proj (plainNorm (γ 2) (β 2) (μ 2) (s 2) (conv adj (Wg 2) (bg 2)
    (plainNorm (γ 1) (β 1) (μ 1) (s 1) (conv adj (Wg 1) (bg 1)
      (plainNorm (γ 0) (β 0) (μ 0) (s 0) (conv adj (Wg 0) (bg 0) (proj x Win bin))))))) Wout bout

/-- With real arguments the folded network, its scale γ·s and shift β − μ·(γ·s) computed per channel, is the plain
    network: layer by layer the convolution's output is real, so the two normalisations agree on it, and their
    common value is real again. -/
theorem netFolded_eq_netPlain {x : Fin N → Fin D → EReal} {adj : Fin N → Fin N → EReal} {Win : Fin D → Fin H → EReal}
    {bin : Fin H → EReal} {Wg : Fin 3 → Fin H → Fin H → EReal} {bg γ β μ s : Fin 3 → Fin H → EReal}
    (Wout : Fin H → Fin O → EReal) (bout : Fin O → EReal)
    (hx : RealMat x) (hadj : RealMat adj) (hWin : RealMat Win) (hbin : RealVec bin) (hWg : ∀ i, RealMat (Wg i))
    (hbg : ∀ i, RealVec (bg i)) (hγ : ∀ i, RealVec (γ i)) (hβ : ∀ i, RealVec (β i)) (hμ : ∀ i, RealVec (μ i))
    (hs : ∀ i, RealVec (s i)) :
    netFolded x adj Win bin Wg bg (fun i j => γ i j * s i j) (fun i j => β i j - μ i j * (γ i j * s i j)) Wout bout
      = netPlain x adj Win bin Wg bg γ β μ s Wout bout := by
  unfold netFolded netPlain
  have h0 : RealMat (proj x Win bin) := proj_real hx hWin hbin
  have c0 := conv_real hadj (hWg 0) (hbg 0) h0
  rw [foldedNorm_eq_plainNorm (hγ 0) (hβ 0) (hμ 0) (hs 0) c0]
  have n0 := plainNorm_real (hγ 0) (hβ 0) (hμ 0) (hs 0) c0
  have c1 := conv_real hadj (hWg 1) (hbg 1) n0
  rw [foldedNorm_eq_plainNorm (hγ 1) (hβ 1) (hμ 1) (hs 1) c1]
  have n1 := plainNorm_real (hγ 1) (hβ 1) (hμ 1) (hs 1) c1
  have c2 := conv_real hadj (hWg 2) (hbg 2) n1
  rw [foldedNorm_eq_plainNorm (hγ 2) (hβ 2) (hμ 2) (hs 2) c2]

end GraphNet

end
-- ==== Proof.BodyValue.lean ====
/-
  What one grid point of the kernel computes, at the ideal values: the output block of graph b as the network of
  GraphNet.lean, with the folded normalisation, applied to graph b's rows.

  The body's arithmetic is ten pure terms (the generated payloads), chained through its two scratch buffers:
  the input projection x·W_in + b_in; the adjacency block recast; per layer the two products adj·(h·W_i), the bias,
  the rectifier and the multiply-add by the layer's scale and shift rows; the output projection. Read entry by entry,
  a product into the zero accumulator is a sum over the contracted coordinate, a change of float format is the
  identity, a cast that drops or adds a unit axis keeps the entries, a bias row spread over the 1024 node rows is
  read at its one row, and a load of layer i's slab of a stacked parameter reads that parameter at leading
  coordinate i. Put together, entry (n, o) of the block is entry (n, o) of netFolded on the block's rows.
-/
import proofs.«103491_j5059471475382_2_alg».proof.Proof.Gen.KernelIdeal.Skeleton
import Idealize.ShloMosaic.Lib.Pipeline.Value
import Idealize.ShloMosaic.Lib.ValueLayout
import proofs.«103491_j5059471475382_2_alg».proof.Proof.LibPlainMatmul
import proofs.«103491_j5059471475382_2_alg».proof.Proof.GraphNet

noncomputable section

namespace Cert.KernelIdeal.Body

open Cert.KernelIdeal Cert.KernelIdeal.Gen Idealize.ShloMosaic Idealize.ShloMosaic.ValueIdx GraphNet

/-! ## The four products of the body, entry by entry -/

theorem mm_in (l : FVec Ideal S1024x128 .bf16) (r : FVec Ideal S128x512 .bf16) (p : Fin 1024) (e : Fin 512) :
    matmul dot_S1024x128_S128x512_S1024x512_1_0_0_1_n_n none l r (constant S1024x512 .f32 0x00000000#32) (ix2 p e)
      = ∑ k : Fin 128, l (ix2 p k) * r (ix2 k e) :=
  matmul_plain_zero_apply 1024 128 512 none l r p e

theorem mm_hw (l : FVec Ideal S1024x512 .bf16) (r : FVec Ideal S512x512 .bf16) (p : Fin 1024) (e : Fin 512) :
    matmul dot_S1024x512_S512x512_S1024x512_1_0_0_1_n_n none l r (constant S1024x512 .f32 0x00000000#32) (ix2 p e)
      = ∑ k : Fin 512, l (ix2 p k) * r (ix2 k e) :=
  matmul_plain_zero_apply 1024 512 512 none l r p e

theorem mm_adj (l : FVec Ideal S1024x1024 .bf16) (r : FVec Ideal S1024x512 .bf16) (p : Fin 1024) (e : Fin 512) :
    matmul dot_S1024x1024_S1024x512_S1024x512_1_0_0_1_n_n none l r (constant S1024x512 .f32 0x00000000#32) (ix2 p e)
      = ∑ k : Fin 1024, l (ix2 p k) * r (ix2 k e) :=
  matmul_plain_zero_apply 1024 1024 512 none l r p e

theorem mm_out (l : FVec Ideal S1024x512 .bf16) (r : FVec Ideal S512x256 .bf16) (p : Fin 1024) (e : Fin 256) :
    matmul dot_S1024x512_S512x256_S1024x256_1_0_0_1_n_n none l r (constant S1024x256 .f32 0x00000000#32) (ix2 p e)
      = ∑ k : Fin 512, l (ix2 p k) * r (ix2 k e) :=
  matmul_plain_zero_apply 1024 512 256 none l r p e

/-! ## The payloads, entry by entry -/

/-- The input projection: x·W_in + b_in. -/
theorem pay2_apply (v0 : Vec Ideal S1x1024x128 .f32) (v3 : Vec Ideal S128x512 .f32) (v6 : Vec Ideal S1x512 .f32) (n : Fin 1024) (c : Fin 512) :
    k0_pay2 (F := Ideal) v0 v3 v6 (ix2 n c) = (∑ f : Fin 128, v0 (ix3 (0 : Fin 1) n f) * v3 (ix2 f c)) + v6 (ix2 (0 : Fin 1) c) := by
  unfold k0_pay2
  simp only [shapeCast_self, addf_apply, truncf_apply, mm_in, shapeCast_1ab_ab_apply, broadcastTo_1b_ab_apply]

/-- The adjacency block, its unit axis dropped. -/
theorem pay3_apply (v13 : Vec Ideal S1x1024x1024 .f32) (n m : Fin 1024) :
    k0_pay3 (F := Ideal) v13 (ix2 n m) = v13 (ix3 (0 : Fin 1) n m) := by
  unfold k0_pay3
  simp only [shapeCast_self, truncf_apply, shapeCast_1ab_ab_apply]

/-- Layer 0's aggregation: adj·(h·W). -/
theorem pay4_apply (v19 : Vec Ideal S1024x512 .f32) (v21 : Vec Ideal S1x512x512 .f32) (v26 : Vec Ideal S1024x1024 .bf16) (n : Fin 1024) (c : Fin 512) :
    k0_pay4 (F := Ideal) v19 v21 v26 (ix2 n c)
      = ∑ m : Fin 1024, v26 (ix2 n m) * ∑ k : Fin 512, v19 (ix2 m k) * v21 (ix3 (0 : Fin 1) k c) := by
  unfold k0_pay4
  simp only [truncf_apply, mm_adj, mm_hw, shapeCast_1ab_ab_apply]

/-- A bias row recast to a vector and back is itself. -/
theorem pay5_eq (v28 : Vec Ideal S1x512 .f32) : k0_pay5 (F := Ideal) v28 = v28 := by
  unfold k0_pay5
  exact shapeCast_shapeCast _ _ _

/-- Layer 0's bias, rectifier and multiply-add. -/
theorem pay6_apply (v27 : FVec Ideal S1024x512 .f32) (v30 : FVec Ideal S1x512 .f32) (v35 v40 : Vec Ideal S1x512 .f32) (n : Fin 1024) (c : Fin 512) :
    k0_pay6 (F := Ideal) v27 v30 v35 v40 (ix2 n c)
      = max (v27 (ix2 n c) + v30 (ix2 (0 : Fin 1) c)) 0 * v35 (ix2 (0 : Fin 1) c) + v40 (ix2 (0 : Fin 1) c) := by
  unfold k0_pay6
  simp only [shapeCast_self, shapeCast_shapeCast, addf_apply, mulf_apply, maximumf_apply, broadcast_apply, broadcastTo_1b_ab_apply,
    Ideal.ofBits_def, Ideal.ofBits_zero_f32]

/-- Layer 1 up to the multiplication by its scale row. -/
theorem pay7_apply (v48 : Vec Ideal S1024x512 .f32) (v50 : Vec Ideal S1x512x512 .f32) (v55 : Vec Ideal S1024x1024 .bf16)
    (v57 v64 : Vec Ideal S1x512 .f32) (n : Fin 1024) (c : Fin 512) :
    k0_pay7 (F := Ideal) v48 v50 v55 v57 v64 (ix2 n c)
      = max ((∑ m : Fin 1024, v55 (ix2 n m) * ∑ k : Fin 512, v48 (ix2 m k) * v50 (ix3 (0 : Fin 1) k c)) + v57 (ix2 (0 : Fin 1) c)) 0
          * v64 (ix2 (0 : Fin 1) c) := by
  unfold k0_pay7
  simp only [shapeCast_shapeCast, addf_apply, mulf_apply, maximumf_apply, broadcast_apply, broadcastTo_1b_ab_apply, truncf_apply,
    mm_adj, mm_hw, shapeCast_1ab_ab_apply, Ideal.ofBits_def, Ideal.ofBits_zero_f32]

/-- Layer 1's shift row added. -/
theorem pay8_apply (v68 : FVec Ideal S1024x512 .f32) (v69 : Vec Ideal S1x512 .f32) (n : Fin 1024) (c : Fin 512) :
    k0_pay8 (F := Ideal) v68 v69 (ix2 n c) = v68 (ix2 n c) + v69 (ix2 (0 : Fin 1) c) := by
  unfold k0_pay8
  simp only [shapeCast_self, shapeCast_shapeCast, addf_apply, broadcastTo_1b_ab_apply]

/-- Layer 2 whole. -/
theorem pay9_apply (v77 : Vec Ideal S1024x512 .f32) (v79 : Vec Ideal S1x512x512 .f32) (v84 : Vec Ideal S1024x1024 .bf16)
    (v86 v93 v98 : Vec Ideal S1x512 .f32) (n : Fin 1024) (c : Fin 512) :
    k0_pay9 (F := Ideal) v77 v79 v84 v86 v93 v98 (ix2 n c)
      = max ((∑ m : Fin 1024, v84 (ix2 n m) * ∑ k : Fin 512, v77 (ix2 m k) * v79 (ix3 (0 : Fin 1) k c)) + v86 (ix2 (0 : Fin 1) c)) 0
          * v93 (ix2 (0 : Fin 1) c) + v98 (ix2 (0 : Fin 1) c) := by
  unfold k0_pay9
  simp only [shapeCast_shapeCast, addf_apply, mulf_apply, maximumf_apply, broadcast_apply, broadcastTo_1b_ab_apply, truncf_apply,
    mm_adj, mm_hw, shapeCast_1ab_ab_apply, Ideal.ofBits_def, Ideal.ofBits_zero_f32]

/-- The output weights recast. -/
theorem pay10_apply (v104 : Vec Ideal S512x256 .f32) (i : S512x256.Idx) : k0_pay10 (F := Ideal) v104 i = v104 i := rfl

/-- The output projection: h·W_out + b_out, a unit leading axis added. -/
theorem pay1_apply (v103 : FVec Ideal S1024x512 .bf16) (v105 : FVec Ideal S512x256 .bf16) (v107 : Vec Ideal S1x256 .f32)
    (u : Fin 1) (n : Fin 1024) (o : Fin 256) :
    k0_pay1 (F := Ideal) v103 v105 v107 (ix3 u n o) = (∑ k : Fin 512, v103 (ix2 n k) * v105 (ix2 k o)) + v107 (ix2 (0 : Fin 1) o) := by
  unfold k0_pay1
  simp only [shapeCast_self, addf_apply, mm_out, shapeCast_ab_1ab_apply, broadcastTo_1b_ab_apply]

/-! ## Loads of one layer's slab of a stacked parameter -/

/-- Layer i's [512, 512] slab of the stacked weights, loaded as [1, 512, 512]. -/
theorem ld_slab (X : Vec Ideal S3x512x512 .f32) (i : ℕ) (hi : i < 3)
    (inb : ∀ a, (![i, 0, 0] : Fin 3 → Nat) a + S1x512x512.size a ≤ S3x512x512.size a) (u : Fin 1) (k c : Fin 512) :
    View.ld (Val := Elt Ideal) X (Rect.unit (s := S3x512x512) ![i, 0, 0] S1x512x512.size inb) (ix3 u k c)
      = X (ix3 (⟨i, hi⟩ : Fin 3) k c) :=
  congrArg X (funext fun a => Fin.ext (by
    match a with
    | ⟨0, _⟩ => show i + 1 * u.val = i; have := u.isLt; omega
    | ⟨1, _⟩ => show 0 + 1 * k.val = k.val; omega
    | ⟨2, _⟩ => show 0 + 1 * c.val = c.val; omega))

/-- Layer i's row of a stacked [3, 512] parameter, loaded as [1, 512]. -/
theorem ld_row (X : Vec Ideal S3x512 .f32) (i : ℕ) (hi : i < 3)
    (inb : ∀ a, (![i, 0] : Fin 2 → Nat) a + S1x512.size a ≤ S3x512.size a) (u : Fin 1) (c : Fin 512) :
    View.ld (Val := Elt Ideal) X (Rect.unit (s := S3x512) ![i, 0] S1x512.size inb) (ix2 u c) = X (ix2 (⟨i, hi⟩ : Fin 3) c) :=
  congrArg X (funext fun a => Fin.ext (by
    match a with
    | ⟨0, _⟩ => show i + 1 * u.val = i; have := u.isLt; omega
    | ⟨1, _⟩ => show 0 + 1 * c.val = c.val; omega))

/-! ## The block one grid point writes -/

variable {F : FTy → Type} [FloatOps F]

/-- The body's result as one term of its ten input blocks: the payloads chained, each scratch read-back replaced by
    the payload last stored there, each parameter load a slab of the block. -/
def block (x0 : Vec F S1x1024x128 .f32) (x1 : Vec F S1x1024x1024 .f32) (x2 : Vec F S128x512 .f32) (x3 : Vec F S1x512 .f32)
    (x4 : Vec F S3x512x512 .f32) (x5 x6 x7 : Vec F S3x512 .f32) (x8 : Vec F S512x256 .f32) (x9 : Vec F S1x256 .f32) :
    FVec F S1x1024x256 .f32 :=
  k0_pay1
    (k0_pay9
      (k0_pay8
        (k0_pay7
          (k0_pay6
            (k0_pay4 (k0_pay2 x0 x2 x3)
              (View.ld (Val := Elt F) x4 (Rect.unit (s := S3x512x512) ![0, 0, 0] S1x512x512.size inb_S3x512x512_S1x512x512_0_0_0))
              (k0_pay3 x1))
            (k0_pay5 (View.ld (Val := Elt F) x5 (Rect.unit (s := S3x512) ![0, 0] S1x512.size inb_S3x512_S1x512_0_0)))
            (View.ld (Val := Elt F) x6 (Rect.unit (s := S3x512) ![0, 0] S1x512.size inb_S3x512_S1x512_0_0))
            (View.ld (Val := Elt F) x7 (Rect.unit (s := S3x512) ![0, 0] S1x512.size inb_S3x512_S1x512_0_0)))
          (View.ld (Val := Elt F) x4 (Rect.unit (s := S3x512x512) ![1, 0, 0] S1x512x512.size inb_S3x512x512_S1x512x512_1_0_0))
          (k0_pay3 x1)
          (View.ld (Val := Elt F) x5 (Rect.unit (s := S3x512) ![1, 0] S1x512.size inb_S3x512_S1x512_1_0))
          (View.ld (Val := Elt F) x6 (Rect.unit (s := S3x512) ![1, 0] S1x512.size inb_S3x512_S1x512_1_0)))
        (View.ld (Val := Elt F) x7 (Rect.unit (s := S3x512) ![1, 0] S1x512.size inb_S3x512_S1x512_1_0)))
      (View.ld (Val := Elt F) x4 (Rect.unit (s := S3x512x512) ![2, 0, 0] S1x512x512.size inb_S3x512x512_S1x512x512_2_0_0))
      (k0_pay3 x1)
      (View.ld (Val := Elt F) x5 (Rect.unit (s := S3x512) ![2, 0] S1x512.size inb_S3x512_S1x512_2_0))
      (View.ld (Val := Elt F) x6 (Rect.unit (s := S3x512) ![2, 0] S1x512.size inb_S3x512_S1x512_2_0))
      (View.ld (Val := Elt F) x7 (Rect.unit (s := S3x512) ![2, 0] S1x512.size inb_S3x512_S1x512_2_0)))
    (k0_pay10 x8) x9

/-- At the ideal values the block's entry (n, o) is the folded network's, on the rows of the ten input blocks. -/
theorem block_apply (x0 : Vec Ideal S1x1024x128 .f32) (x1 : Vec Ideal S1x1024x1024 .f32) (x2 : Vec Ideal S128x512 .f32)
    (x3 : Vec Ideal S1x512 .f32) (x4 : Vec Ideal S3x512x512 .f32) (x5 x6 x7 : Vec Ideal S3x512 .f32) (x8 : Vec Ideal S512x256 .f32)
    (x9 : Vec Ideal S1x256 .f32) (u : Fin 1) (n : Fin 1024) (o : Fin 256) :
    block (F := Ideal) x0 x1 x2 x3 x4 x5 x6 x7 x8 x9 (ix3 u n o)
      = netFolded (fun n f => x0 (ix3 (0 : Fin 1) n f)) (fun n m => x1 (ix3 (0 : Fin 1) n m)) (fun f c => x2 (ix2 f c))
          (fun c => x3 (ix2 (0 : Fin 1) c)) (fun i k c => x4 (ix3 i k c)) (fun i c => x5 (ix2 i c)) (fun i c => x6 (ix2 i c))
          (fun i c => x7 (ix2 i c)) (fun k o => x8 (ix2 k o)) (fun o => x9 (ix2 (0 : Fin 1) o)) n o := by
  unfold block netFolded proj foldedNorm conv
  simp only [pay1_apply, pay9_apply, pay8_apply, pay7_apply, pay6_apply, pay5_eq, pay4_apply, pay3_apply, pay2_apply, pay10_apply,
    ld_slab x4 0 (by decide), ld_slab x4 1 (by decide), ld_slab x4 2 (by decide), ld_row x5 0 (by decide), ld_row x5 1 (by decide),
    ld_row x5 2 (by decide), ld_row x6 0 (by decide), ld_row x6 1 (by decide), ld_row x6 2 (by decide), ld_row x7 0 (by decide),
    ld_row x7 1 (by decide), ld_row x7 2 (by decide)]
  rfl

end Cert.KernelIdeal.Body

end
-- ==== Proof.BodyRun.lean ====
/-
  The kernel's run at one grid point leaves, in the output's staging buffer, the block of BodyValue.lean.

  The body stores each scratch buffer whole and reads it back whole before the next store, and it stores the output
  block once, whole. So the contents the run found for the output — its one covering piece read back — is the
  payload of that store, in which every read-back of a scratch buffer is the payload stored there last and every
  load of an input block reads the block (whole, or one layer's slab of a stacked parameter).
-/
import proofs.«103491_j5059471475382_2_alg».proof.Proof.Gen.KernelIdeal.Frame
import Idealize.ShloMosaic.Lib.Pipeline.Value
import proofs.«103491_j5059471475382_2_alg».proof.Proof.BodyValue

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

theorem zero2 : (![0, 0] : Fin 2 → Nat) = fun _ => 0 := funext fun a => by fin_cases a <;> rfl

theorem zero3 : (![0, 0, 0] : Fin 3 → Nat) = fun _ => 0 := funext fun a => by fin_cases a <;> rfl

/-- What the run leaves in the output's staging buffer is the block. -/
theorem out_eq (c : Dev nD) (i : grid0.Coords) (arg1 : Memref sig .tc .vmem S1x1024x128 .f32) (harg1 : arg1.IsWhole) (arg2 : Memref sig .tc .vmem S1x1024x1024 .f32) (harg2 : arg2.IsWhole) (arg3 : Memref sig .tc .vmem S128x512 .f32) (harg3 : arg3.IsWhole) (arg4 : Memref sig .tc .vmem S1x512 .f32) (harg4 : arg4.IsWhole) (arg5 : Memref sig .tc .vmem S3x512x512 .f32) (harg5 : arg5.IsWhole) (arg6 : Memref sig .tc .vmem S3x512 .f32) (harg6 : arg6.IsWhole) (arg7 : Memref sig .tc .vmem S3x512 .f32) (harg7 : arg7.IsWhole) (arg8 : Memref sig .tc .vmem S3x512 .f32) (harg8 : arg8.IsWhole) (arg9 : Memref sig .tc .vmem S512x256 .f32) (harg9 : arg9.IsWhole) (arg10 : Memref sig .tc .vmem S1x256 .f32) (harg10 : arg10.IsWhole) (arg11 : Memref sig .tc .vmem S1x1024x256 .f32) (harg11 : arg11.IsWhole) (arg12 : Memref sig .tc .vmem S1024x512 .f32) (harg12 : arg12.IsWhole) (arg13 : Memref sig .tc .vmem S1024x1024 .bf16) (harg13 : arg13.IsWhole)
    (x0 : Vec F S1x1024x128 .f32) (x1 : Vec F S1x1024x1024 .f32) (x2 : Vec F S128x512 .f32) (x3 : Vec F S1x512 .f32) (x4 : Vec F S3x512x512 .f32) (x5 : Vec F S3x512 .f32) (x6 : Vec F S3x512 .f32) (x7 : Vec F S3x512 .f32) (x8 : Vec F S512x256 .f32) (x9 : Vec F S1x256 .f32) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = block x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  rw [View.canon_unit_zero (S := S1x1024x256) zero3]
  simp only [View.readCov_cons_toLoadRect, View.readAt_eq_ld, harg1.read_unread, harg2.read_unread, harg3.read_unread,
    harg4.read_unread, harg5.read_unread, harg6.read_unread, harg7.read_unread, harg8.read_unread, harg9.read_unread,
    harg10.read_unread, View.ld_unit_zero (S := S1x1024x128) zero3, View.ld_unit_zero (S := S1x1024x1024) zero3,
    View.ld_unit_zero (S := S128x512) zero2, View.ld_unit_zero (S := S1x512) zero2, View.ld_unit_zero (S := S512x256) zero2,
    View.ld_unit_zero (S := S1x256) zero2]
  rfl

end Cert.KernelIdeal.Body

end
-- ==== Proof.KernelBlocks.lean ====
/-
  The input blocks of the kernel at a grid point, and the operands its host computes, read off the argument arrays.

  The grid has one point per graph. At point t the windows of x and of the adjacency sit on slab t of their arrays
  (block index (t, 0, 0)); every other operand is one block, the whole array, at every point (block index 0). A
  block's element at coordinate y sits in the array at block index × block size + y on every axis, so the block of x
  at point t holds graph t's rows and a parameter's block holds the parameter. Four operands are computed by the host
  before the region from the arguments: the two bias vectors recast as one-row matrices, the scale rows
  γ · rsqrt(variance + ε) and the shift rows β − mean · scale.
-/
import proofs.«103491_j5059471475382_2_alg».proof.Proof.Gen.KernelIdeal.Value
import Idealize.ShloMosaic.Lib.StableHlo.Run
import proofs.«103491_j5059471475382_2_alg».proof.Proof.BodyRun

set_option maxRecDepth 16384

noncomputable section

namespace Cert.KernelIdeal.Whole

open Cert.KernelIdeal Cert.KernelIdeal.Gen Cert.KernelIdeal.Body
open Idealize.ShloMosaic Idealize.ShloMosaic.TcCoe Idealize.ShloMosaic.ValueIdx Idealize.SL.Sem GraphNet
open Idealize.ShloMosaic.Pipeline (Dat)

variable (m : (ℓ : Loc nD τ sig) → Buf (Elt Ideal) ℓ) (ρ : Dev nD → PrngReg)

/-! ## The index maps, decided over the 32 grid points -/

theorem idx_facts : ∀ t : Fin cfg0.N,
    win0_0.index t = ![t.val, 0, 0] ∧ win0_1.index t = ![t.val, 0, 0] ∧ win0_2.index t = ![0, 0] ∧ win0_3.index t = ![0, 0]
    ∧ win0_4.index t = ![0, 0, 0] ∧ win0_5.index t = ![0, 0] ∧ win0_6.index t = ![0, 0] ∧ win0_7.index t = ![0, 0]
    ∧ win0_8.index t = ![0, 0] ∧ win0_9.index t = ![0, 0] ∧ win0_10.index t = ![t.val, 0, 0] :=
  (by decide +kernel : ∀ t : Fin grid0.N, _)

/-- The graph a grid point works on. -/
def graphOf (t : Fin cfg0.N) : Fin 32 := ⟨t.val, by have := t.isLt; have hN : cfg0.N = 32 := N_0; omega⟩

/-! ## The input blocks at a point, read off the arrays as the region finds them -/

/-- x's block at point t: graph t's rows. -/
theorem blk0 (c : Dev nD) (t : Fin cfg0.N) (u : Fin 1) (n : Fin 1024) (f : Fin 128) :
    iblk m c 0 t (ix3 u n f) = V m c main_arg0 (ix3 (graphOf t) n f) := by
  obtain ⟨e, -⟩ := idx_facts t
  show V m c main_arg0 (((cfg0.win 0).blk t).view.emb (ix3 u n f)) = _
  refine congrArg _ (funext fun a => Fin.ext ?_)
  match a with
  | ⟨0, _⟩ => show win0_0.index t (0 : Fin 3) * 1 + 1 * u.val = t.val; rw [e]; show t.val * 1 + 1 * u.val = t.val; have := u.isLt; omega
  | ⟨1, _⟩ => show win0_0.index t (1 : Fin 3) * 1024 + 1 * n.val = n.val; rw [e]; show 0 * 1024 + 1 * n.val = n.val; omega
  | ⟨2, _⟩ => show win0_0.index t (2 : Fin 3) * 128 + 1 * f.val = f.val; rw [e]; show 0 * 128 + 1 * f.val = f.val; omega

/-- The adjacency's block at point t: graph t's. -/
theorem blk1 (c : Dev nD) (t : Fin cfg0.N) (u : Fin 1) (n k : Fin 1024) :
    iblk m c 1 t (ix3 u n k) = V m c main_arg1 (ix3 (graphOf t) n k) := by
  obtain ⟨-, e, -⟩ := idx_facts t
  show V m c main_arg1 (((cfg0.win 1).blk t).view.emb (ix3 u n k)) = _
  refine congrArg _ (funext fun a => Fin.ext ?_)
  match a with
  | ⟨0, _⟩ => show win0_1.index t (0 : Fin 3) * 1 + 1 * u.val = t.val; rw [e]; show t.val * 1 + 1 * u.val = t.val; have := u.isLt; omega
  | ⟨1, _⟩ => show win0_1.index t (1 : Fin 3) * 1024 + 1 * n.val = n.val; rw [e]; show 0 * 1024 + 1 * n.val = n.val; omega
  | ⟨2, _⟩ => show win0_1.index t (2 : Fin 3) * 1024 + 1 * k.val = k.val; rw [e]; show 0 * 1024 + 1 * k.val = k.val; omega

/-- The input weights: the whole array at every point. -/
theorem blk2 (c : Dev nD) (t : Fin cfg0.N) (f : Fin 128) (k : Fin 512) :
    iblk m c 2 t (ix2 f k) = V m c main_arg2 (ix2 f k) := by
  obtain ⟨-, -, e, -⟩ := idx_facts t
  show V m c main_arg2 (((cfg0.win 2).blk t).view.emb (ix2 f k)) = _
  refine congrArg _ (funext fun a => Fin.ext ?_)
  match a with
  | ⟨0, _⟩ => show win0_2.index t (0 : Fin 2) * 128 + 1 * f.val = f.val; rw [e]; show 0 * 128 + 1 * f.val = f.val; omega
  | ⟨1, _⟩ => show win0_2.index t (1 : Fin 2) * 512 + 1 * k.val = k.val; rw [e]; show 0 * 512 + 1 * k.val = k.val; omega

/-- The input bias row. -/
theorem blk3 (c : Dev nD) (t : Fin cfg0.N) (u : Fin 1) (k : Fin 512) :
    iblk m c 3 t (ix2 u k) = V m c main_v6 (ix2 u k) := by
  obtain ⟨-, -, -, e, -⟩ := idx_facts t
  show V m c main_v6 (((cfg0.win 3).blk t).view.emb (ix2 u k)) = _
  refine congrArg _ (funext fun a => Fin.ext ?_)
  match a with
  | ⟨0, _⟩ => show win0_3.index t (0 : Fin 2) * 1 + 1 * u.val = u.val; rw [e]; show 0 * 1 + 1 * u.val = u.val; omega
  | ⟨1, _⟩ => show win0_3.index t (1 : Fin 2) * 512 + 1 * k.val = k.val; rw [e]; show 0 * 512 + 1 * k.val = k.val; omega

/-- The stacked layer weights. -/
theorem blk4 (c : Dev nD) (t : Fin cfg0.N) (i : Fin 3) (k j : Fin 512) :
    iblk m c 4 t (ix3 i k j) = V m c main_arg4 (ix3 i k j) := by
  obtain ⟨-, -, -, -, e, -⟩ := idx_facts t
  show V m c main_arg4 (((cfg0.win 4).blk t).view.emb (ix3 i k j)) = _
  refine congrArg _ (funext fun a => Fin.ext ?_)
  match a with
  | ⟨0, _⟩ => show win0_4.index t (0 : Fin 3) * 3 + 1 * i.val = i.val; rw [e]; show 0 * 3 + 1 * i.val = i.val; omega
  | ⟨1, _⟩ => show win0_4.index t (1 : Fin 3) * 512 + 1 * k.val = k.val; rw [e]; show 0 * 512 + 1 * k.val = k.val; omega
  | ⟨2, _⟩ => show win0_4.index t (2 : Fin 3) * 512 + 1 * j.val = j.val; rw [e]; show 0 * 512 + 1 * j.val = j.val; omega

/-- The stacked layer biases. -/
theorem blk5 (c : Dev nD) (t : Fin cfg0.N) (i : Fin 3) (k : Fin 512) :
    iblk m c 5 t (ix2 i k) = V m c main_arg5 (ix2 i k) := by
  obtain ⟨-, -, -, -, -, e, -⟩ := idx_facts t
  show V m c main_arg5 (((cfg0.win 5).blk t).view.emb (ix2 i k)) = _
  refine congrArg _ (funext fun a => Fin.ext ?_)
  match a with
  | ⟨0, _⟩ => show win0_5.index t (0 : Fin 2) * 3 + 1 * i.val = i.val; rw [e]; show 0 * 3 + 1 * i.val = i.val; omega
  | ⟨1, _⟩ => show win0_5.index t (1 : Fin 2) * 512 + 1 * k.val = k.val; rw [e]; show 0 * 512 + 1 * k.val = k.val; omega

/-- The stacked scale rows. -/
theorem blk6 (c : Dev nD) (t : Fin cfg0.N) (i : Fin 3) (k : Fin 512) :
    iblk m c 6 t (ix2 i k) = V m c main_v3 (ix2 i k) := by
  obtain ⟨-, -, -, -, -, -, e, -⟩ := idx_facts t
  show V m c main_v3 (((cfg0.win 6).blk t).view.emb (ix2 i k)) = _
  refine congrArg _ (funext fun a => Fin.ext ?_)
  match a with
  | ⟨0, _⟩ => show win0_6.index t (0 : Fin 2) * 3 + 1 * i.val = i.val; rw [e]; show 0 * 3 + 1 * i.val = i.val; omega
  | ⟨1, _⟩ => show win0_6.index t (1 : Fin 2) * 512 + 1 * k.val = k.val; rw [e]; show 0 * 512 + 1 * k.val = k.val; omega

/-- The stacked shift rows. -/
theorem blk7 (c : Dev nD) (t : Fin cfg0.N) (i : Fin 3) (k : Fin 512) :
    iblk m c 7 t (ix2 i k) = V m c main_v5 (ix2 i k) := by
  obtain ⟨-, -, -, -, -, -, -, e, -⟩ := idx_facts t
  show V m c main_v5 (((cfg0.win 7).blk t).view.emb (ix2 i k)) = _
  refine congrArg _ (funext fun a => Fin.ext ?_)
  match a with
  | ⟨0, _⟩ => show win0_7.index t (0 : Fin 2) * 3 + 1 * i.val = i.val; rw [e]; show 0 * 3 + 1 * i.val = i.val; omega
  | ⟨1, _⟩ => show win0_7.index t (1 : Fin 2) * 512 + 1 * k.val = k.val; rw [e]; show 0 * 512 + 1 * k.val = k.val; omega

/-- The output weights. -/
theorem blk8 (c : Dev nD) (t : Fin cfg0.N) (k : Fin 512) (o : Fin 256) :
    iblk m c 8 t (ix2 k o) = V m c main_arg10 (ix2 k o) := by
  obtain ⟨-, -, -, -, -, -, -, -, e, -⟩ := idx_facts t
  show V m c main_arg10 (((cfg0.win 8).blk t).view.emb (ix2 k o)) = _
  refine congrArg _ (funext fun a => Fin.ext ?_)
  match a with
  | ⟨0, _⟩ => show win0_8.index t (0 : Fin 2) * 512 + 1 * k.val = k.val; rw [e]; show 0 * 512 + 1 * k.val = k.val; omega
  | ⟨1, _⟩ => show win0_8.index t (1 : Fin 2) * 256 + 1 * o.val = o.val; rw [e]; show 0 * 256 + 1 * o.val = o.val; omega

/-- The output bias row. -/
theorem blk9 (c : Dev nD) (t : Fin cfg0.N) (u : Fin 1) (o : Fin 256) :
    iblk m c 9 t (ix2 u o) = V m c main_v7 (ix2 u o) := by
  obtain ⟨-, -, -, -, -, -, -, -, -, e, -⟩ := idx_facts t
  show V m c main_v7 (((cfg0.win 9).blk t).view.emb (ix2 u o)) = _
  refine congrArg _ (funext fun a => Fin.ext ?_)
  match a with
  | ⟨0, _⟩ => show win0_9.index t (0 : Fin 2) * 1 + 1 * u.val = u.val; rw [e]; show 0 * 1 + 1 * u.val = u.val; omega
  | ⟨1, _⟩ => show win0_9.index t (1 : Fin 2) * 256 + 1 * o.val = o.val; rw [e]; show 0 * 256 + 1 * o.val = o.val; omega

/-! ## The four operands the host computes before the region -/

/-- The scale rows: γ · rsqrt(variance + ε). -/
theorem V_scale (c : Dev nD) :
    (V m c main_v3 : S3x512.Idx → EReal)
      = mulf (m ((c : Thread nD τ).loc main_arg6))
          (Host.rsqrt (addf (m ((c : Thread nD τ).loc main_arg9))
            (broadcastInDim S3x512 ![] bcast_S_S3x512 (constant (F := Ideal) S_ .f32 0x3727C5AC#32)))) := by
  dsimp only [Gen.V, Gen.hostOps0]
  after_results

/-- The shift rows: β − mean · scale. -/
theorem V_shift (c : Dev nD) :
    (V m c main_v5 : S3x512.Idx → EReal)
      = subf (m ((c : Thread nD τ).loc main_arg7))
          (mulf (m ((c : Thread nD τ).loc main_arg8))
            (mulf (m ((c : Thread nD τ).loc main_arg6))
              (Host.rsqrt (addf (m ((c : Thread nD τ).loc main_arg9))
                (broadcastInDim S3x512 ![] bcast_S_S3x512 (constant (F := Ideal) S_ .f32 0x3727C5AC#32)))))) := by
  dsimp only [Gen.V, Gen.hostOps0]
  after_results

/-- The input bias as a one-row matrix. -/
theorem V_bin (c : Dev nD) :
    (V m c main_v6 : S1x512.Idx → EReal) = shapeCast S1x512 (m ((c : Thread nD τ).loc main_arg3)) shapeCasts_S512_S1x512 := by
  dsimp only [Gen.V, Gen.hostOps0]
  after_results
  rfl

/-- The output bias as a one-row matrix. -/
theorem V_bout (c : Dev nD) :
    (V m c main_v7 : S1x256.Idx → EReal) = shapeCast S1x256 (m ((c : Thread nD τ).loc main_arg11)) shapeCasts_S256_S1x256 := by
  dsimp only [Gen.V, Gen.hostOps0]
  after_results
  rfl

/-- The epsilon constant spread over the stacked rows is its printed value at every entry. -/
theorem eps_at (i : S3x512.Idx) :
    broadcastInDim S3x512 ![] bcast_S_S3x512 (constant (F := Ideal) S_ .f32 0x3727C5AC#32) i = Ideal.ofBits .f32 0x3727C5AC#32 :=
  (broadcastInDim_apply ![] bcast_S_S3x512 _ i ix0 (fun a => a.elim0)).trans rfl

end Cert.KernelIdeal.Whole

end
-- ==== Proof.KernelValue.lean ====
/-
  The array the kernel's program ends with, at the ideal values: entry (b, n, o) is the folded network of GraphNet.lean
  on graph b's rows, its scale and shift rows the host's γ · rsqrt(variance + ε) and β − mean · scale.

  At grid point t the body finds graph t's rows of x and of the adjacency and the whole parameter arrays
  (KernelBlocks.lean), and leaves the block of BodyValue.lean of them (BodyRun.lean); the output window sits on slab t
  of the result array. So what point t writes back is slab t of one whole-array function of the argument arrays,
  `result`. The 32 slabs tile the result array — index (b, n, o) lies in the slab of point b — so after the run the
  array is `result`.
-/
import proofs.«103491_j5059471475382_2_alg».proof.Proof.KernelBlocks

set_option maxRecDepth 16384

noncomputable section

namespace Cert.KernelIdeal.Whole

open Cert.KernelIdeal Cert.KernelIdeal.Gen Cert.KernelIdeal.Body
open Idealize.ShloMosaic Idealize.ShloMosaic.TcCoe Idealize.ShloMosaic.ValueIdx Idealize.SL.Sem GraphNet
open Idealize.ShloMosaic.Pipeline (Dat)

variable (m : (ℓ : Loc nD τ sig) → Buf (Elt Ideal) ℓ) (ρ : Dev nD → PrngReg)

/-! ## The argument arrays, as arrays of extended reals -/

abbrev argX (c : Dev nD) : S32x1024x128.Idx → EReal := m ((c : Thread nD τ).loc main_arg0)
abbrev argAdj (c : Dev nD) : S32x1024x1024.Idx → EReal := m ((c : Thread nD τ).loc main_arg1)
abbrev argWin (c : Dev nD) : S128x512.Idx → EReal := m ((c : Thread nD τ).loc main_arg2)
abbrev argBin (c : Dev nD) : S512.Idx → EReal := m ((c : Thread nD τ).loc main_arg3)
abbrev argWg (c : Dev nD) : S3x512x512.Idx → EReal := m ((c : Thread nD τ).loc main_arg4)
abbrev argBg (c : Dev nD) : S3x512.Idx → EReal := m ((c : Thread nD τ).loc main_arg5)
abbrev argGamma (c : Dev nD) : S3x512.Idx → EReal := m ((c : Thread nD τ).loc main_arg6)
abbrev argBeta (c : Dev nD) : S3x512.Idx → EReal := m ((c : Thread nD τ).loc main_arg7)
abbrev argMean (c : Dev nD) : S3x512.Idx → EReal := m ((c : Thread nD τ).loc main_arg8)
abbrev argVar (c : Dev nD) : S3x512.Idx → EReal := m ((c : Thread nD τ).loc main_arg9)
abbrev argWout (c : Dev nD) : S512x256.Idx → EReal := m ((c : Thread nD τ).loc main_arg10)
abbrev argBout (c : Dev nD) : S256.Idx → EReal := m ((c : Thread nD τ).loc main_arg11)

/-! ## The whole array -/

/-- The folded network on graph b's rows of the argument arrays, its scale and shift rows the host's. -/
def net (c : Dev nD) (b : Fin 32) : Fin 1024 → Fin 256 → EReal :=
  netFolded (fun n f => argX m c (ix3 b n f)) (fun n k => argAdj m c (ix3 b n k)) (fun f k => argWin m c (ix2 f k))
    (fun k => argBin m c (ix1 k)) (fun l k j => argWg m c (ix3 l k j)) (fun l k => argBg m c (ix2 l k))
    (fun l k => argGamma m c (ix2 l k) * Ideal.rsqrt (argVar m c (ix2 l k) + Ideal.ofBits .f32 0x3727C5AC#32))
    (fun l k => argBeta m c (ix2 l k)
      - argMean m c (ix2 l k) * (argGamma m c (ix2 l k) * Ideal.rsqrt (argVar m c (ix2 l k) + Ideal.ofBits .f32 0x3727C5AC#32)))
    (fun k o => argWout m c (ix2 k o)) (fun o => argBout m c (ix1 o))

/-- The result array as one function of the argument arrays: at (b, n, o), the folded network on graph b's rows. -/
def result (c : Dev nD) : S32x1024x256.Idx → EReal := fun i =>
  net m c (⟨(i 0).val, (i 0).isLt⟩ : Fin 32) (⟨(i 1).val, (i 1).isLt⟩ : Fin 1024) (⟨(i 2).val, (i 2).isLt⟩ : Fin 256)

theorem result_apply (c : Dev nD) (b : Fin 32) (n : Fin 1024) (o : Fin 256) : result m c (ix3 b n o) = net m c b n o := rfl

/-! ## What each point writes back -/

/-- What point t writes back is slab t of `result`. -/
theorem flushed_eq (c : Dev nD) (t : Fin cfg0.N) :
    (dats m 0 c).flushed 10 t = ((cfg0.win 10).blk t).view.read (Elt Ideal) (result m c) := by
  have ho : outsAt0 m c t = block (F := Ideal) (iblk m c 0 t) (iblk m c 1 t) (iblk m c 2 t) (iblk m c 3 t) (iblk m c 4 t) (iblk m c 5 t)
      (iblk m c 6 t) (iblk m c 7 t) (iblk m c 8 t) (iblk m c 9 t) :=
    out_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) scM0_1 (Memref.isWhole_whole _) (iblk m c 0 t) (iblk m c 1 t) (iblk m c 2 t) (iblk m c 3 t)
      (iblk m c 4 t) (iblk m c 5 t) (iblk m c 6 t) (iblk m c 7 t) (iblk m c 8 t) (iblk m c 9 t)
  rw [Value.flushed10, ho]
  obtain ⟨-, -, -, -, -, -, -, -, -, -, e⟩ := idx_facts t
  refine funext fun (j : S1x1024x256.Idx) => ?_
  obtain ⟨u, n, o, rfl⟩ : ∃ (u : Fin 1) (n : Fin 1024) (o : Fin 256), j = ix3 u n o := ⟨j 0, j 1, j 2, eq_ix3 j⟩
  show block (F := Ideal) (iblk m c 0 t) (iblk m c 1 t) (iblk m c 2 t) (iblk m c 3 t) (iblk m c 4 t) (iblk m c 5 t) (iblk m c 6 t)
      (iblk m c 7 t) (iblk m c 8 t) (iblk m c 9 t) (ix3 u n o)
    = result m c (((cfg0.win 10).blk t).view.emb (ix3 u n o))
  have hemb : ((cfg0.win 10).blk t).view.emb (ix3 u n o) = ix3 (graphOf t) n o := funext fun a => Fin.ext (by
    match a with
    | ⟨0, _⟩ => show win0_10.index t (0 : Fin 3) * 1 + 1 * u.val = t.val; rw [e]; show t.val * 1 + 1 * u.val = t.val; have := u.isLt; omega
    | ⟨1, _⟩ => show win0_10.index t (1 : Fin 3) * 1024 + 1 * n.val = n.val; rw [e]; show 0 * 1024 + 1 * n.val = n.val; omega
    | ⟨2, _⟩ => show win0_10.index t (2 : Fin 3) * 256 + 1 * o.val = o.val; rw [e]; show 0 * 256 + 1 * o.val = o.val; omega)
  rw [hemb, result_apply]
  refine (block_apply (iblk m c 0 t) (iblk m c 1 t) (iblk m c 2 t) (iblk m c 3 t) (iblk m c 4 t) (iblk m c 5 t) (iblk m c 6 t)
      (iblk m c 7 t) (iblk m c 8 t) (iblk m c 9 t) u n o).trans ?_
  unfold net
  have e0 : (fun n f => iblk m c 0 t (ix3 (0 : Fin 1) n f)) = fun n f => argX m c (ix3 (graphOf t) n f) :=
    funext fun n => funext fun f => (blk0 m c t 0 n f).trans (congrFun (V_main_arg0 m c) _)
  have e1 : (fun n k => iblk m c 1 t (ix3 (0 : Fin 1) n k)) = fun n k => argAdj m c (ix3 (graphOf t) n k) :=
    funext fun n => funext fun k => (blk1 m c t 0 n k).trans (congrFun (V_main_arg1 m c) _)
  have e2 : (fun f k => iblk m c 2 t (ix2 f k)) = fun f k => argWin m c (ix2 f k) :=
    funext fun f => funext fun k => (blk2 m c t f k).trans (congrFun (V_main_arg2 m c) _)
  have e3 : (fun k => iblk m c 3 t (ix2 (0 : Fin 1) k)) = fun k => argBin m c (ix1 k) :=
    funext fun k => by rw [blk3, V_bin]; exact shapeCast_a_1a_apply _ _ 0 k
  have e4 : (fun l k j => iblk m c 4 t (ix3 l k j)) = fun l k j => argWg m c (ix3 l k j) :=
    funext fun l => funext fun k => funext fun j => (blk4 m c t l k j).trans (congrFun (V_main_arg4 m c) _)
  have e5 : (fun l k => iblk m c 5 t (ix2 l k)) = fun l k => argBg m c (ix2 l k) :=
    funext fun l => funext fun k => (blk5 m c t l k).trans (congrFun (V_main_arg5 m c) _)
  have e6 : (fun l k => iblk m c 6 t (ix2 l k))
      = fun l k => argGamma m c (ix2 l k) * Ideal.rsqrt (argVar m c (ix2 l k) + Ideal.ofBits .f32 0x3727C5AC#32) :=
    funext fun l => funext fun k => by
      rw [blk6, V_scale]
      show argGamma m c (ix2 l k) * Ideal.rsqrt (argVar m c (ix2 l k)
        + broadcastInDim S3x512 ![] bcast_S_S3x512 (constant (F := Ideal) S_ .f32 0x3727C5AC#32) (ix2 l k)) = _
      rw [eps_at]
  have e7 : (fun l k => iblk m c 7 t (ix2 l k))
      = fun l k => argBeta m c (ix2 l k)
          - argMean m c (ix2 l k) * (argGamma m c (ix2 l k) * Ideal.rsqrt (argVar m c (ix2 l k) + Ideal.ofBits .f32 0x3727C5AC#32)) :=
    funext fun l => funext fun k => by
      rw [blk7, V_shift]
      show argBeta m c (ix2 l k) - argMean m c (ix2 l k) * (argGamma m c (ix2 l k) * Ideal.rsqrt (argVar m c (ix2 l k)
        + broadcastInDim S3x512 ![] bcast_S_S3x512 (constant (F := Ideal) S_ .f32 0x3727C5AC#32) (ix2 l k))) = _
      rw [eps_at]
  have e8 : (fun k o => iblk m c 8 t (ix2 k o)) = fun k o => argWout m c (ix2 k o) :=
    funext fun k => funext fun o => (blk8 m c t k o).trans (congrFun (V_main_arg10 m c) _)
  have e9 : (fun o => iblk m c 9 t (ix2 (0 : Fin 1) o)) = fun o => argBout m c (ix1 o) :=
    funext fun o => by rw [blk9, V_bout]; exact shapeCast_a_1a_apply _ _ 0 o
  rw [e0, e1, e2, e3, e4, e5, e6, e7, e8, e9]

/-! ## The slabs tile the array -/

/-- An index of the result array is in point t's slab iff each coordinate is in the slab's range on its axis. -/
theorem mem_blk (t : Fin cfg0.N) (i : S32x1024x256.Idx) :
    i ∈ ((cfg0.win 10).blk t).view.set ↔ ∀ a : Fin 3, win0_10.index t a * S1x1024x256.size a ≤ (i a).val
      ∧ (i a).val < win0_10.index t a * S1x1024x256.size a + S1x1024x256.size a := by
  show i ∈ ((View.whole main_v8).slice (win0_10.rect t)).set ↔ _
  rw [View.set_slice_whole, Rect.mem_set_unit]
  exact Iff.rfl

/-- Every index (b, n, o) of the result array is in the slab of point b. -/
theorem covered (i : S32x1024x256.Idx) :
    ∃ t : Fin cfg0.N, (cfg0.win 10).flush t = true ∧ i ∈ ((cfg0.win 10).blk t).view.set := by
  have hN : grid0.N = 32 := N_0
  have h0 : (i 0).val < 32 := (i 0).isLt
  have h1 : (i 1).val < 1024 := (i 1).isLt
  have h2 : (i 2).val < 256 := (i 2).isLt
  obtain ⟨t, ht⟩ : ∃ t : Fin cfg0.N, t.val = (i 0).val := ⟨⟨(i 0).val, by show (i 0).val < grid0.N; omega⟩, rfl⟩
  obtain ⟨-, -, -, -, -, -, -, -, -, -, e⟩ := idx_facts t
  refine ⟨t, flush0_10 t, ?_⟩
  rw [mem_blk]
  intro a
  match a with
  | ⟨0, _⟩ =>
    show win0_10.index t (0 : Fin 3) * 1 ≤ (i 0).val ∧ (i 0).val < win0_10.index t (0 : Fin 3) * 1 + 1
    rw [e]; show t.val * 1 ≤ (i 0).val ∧ (i 0).val < t.val * 1 + 1; omega
  | ⟨1, _⟩ =>
    show win0_10.index t (1 : Fin 3) * 1024 ≤ (i 1).val ∧ (i 1).val < win0_10.index t (1 : Fin 3) * 1024 + 1024
    rw [e]; show 0 * 1024 ≤ (i 1).val ∧ (i 1).val < 0 * 1024 + 1024; omega
  | ⟨2, _⟩ =>
    show win0_10.index t (2 : Fin 3) * 256 ≤ (i 2).val ∧ (i 2).val < win0_10.index t (2 : Fin 3) * 256 + 256
    rw [e]; show 0 * 256 ≤ (i 2).val ∧ (i 2).val < 0 * 256 + 256; omega

/-- After the run the result array is `result`. -/
theorem final (c : Dev nD) : (dats m 0 c).arrAt 10 cfg0.N = result m c :=
  (dats m 0 c).arrAt_eq_of_cover 10 (result m c) (fun t _ => flushed_eq m c t) covered

/-! ## The run, read -/

/-- The kernel's program runs, ends with the result array at `result`, and leaves its arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (Value.run_blocks m ρ)

end Cert.KernelIdeal.Whole

end
-- ==== Proof.LibSumContr.lean ====
/-
  A sum over the contraction index of a matrix product that contracts ONE axis, re-indexed by that axis's coordinate.

  A `tpu.matmul` or a host `dot_general` at the ideal values, read at an output index `j`, is a sum over the
  product's contraction index `q` of `l (lhsIdx j q) * r (rhsIdx j q)`. When one axis is contracted, `q` is just a
  coordinate `k : Fin n`; if at coordinate `k` the two operand indices are `L k` and `R k`, the sum is
  `Σ_k l (L k) * r (R k)` (any dimension numbers, any shapes, values in any commutative additive monoid with a product).
-/
import Idealize.ShloMosaic.Lib.ValueIdx

namespace Cert.LibSumContr

open Idealize.ShloMosaic Idealize.ShloMosaic.ValueIdx

/-- The sum over a one-axis contraction index is the sum over that axis's coordinate of the products of the two
    operands at the indices the coordinate selects. -/
theorem sum_contr {M : Type*} [AddCommMonoid M] [Mul M] {sl sr so : Shape} (D : DotDims sl sr so) (n : ℕ)
    (hr : D.contr.rank = 1) (hs : D.contr.size ⟨0, by omega⟩ = n) (l : sl.Idx → M) (r : sr.Idx → M) (j : so.Idx)
    (L : Fin n → sl.Idx) (R : Fin n → sr.Idx)
    (hL : ∀ k, D.lhsIdx j ((contrEquiv1 D n hr hs).symm k) = L k)
    (hR : ∀ k, D.rhsIdx j ((contrEquiv1 D n hr hs).symm k) = R k) :
    ∑ q : D.contr.Idx, l (D.lhsIdx j q) * r (D.rhsIdx j q) = ∑ k : Fin n, l (L k) * r (R k) := by
  rw [← Equiv.sum_comp (contrEquiv1 D n hr hs).symm]
  exact Finset.sum_congr rfl fun k _ => by rw [hL k, hR k]

end Cert.LibSumContr
-- ==== Proof.RefValue.lean ====
/-
  What the reference computes, at the ideal values: entry (b, n, o) of its result is the network of GraphNet.lean,
  with the plain normalisation, applied to graph b's rows.

  The reference works on all 32 graphs at once, in rank-3 arrays [32, 1024, ·]. Read entry by entry at (b, n, c):
  a product that contracts the last axis against a weight matrix sums over that axis within row (b, n); the batched
  product with the adjacency sums over the nodes m of graph b; a parameter row, sliced out of its stack, reshaped to a
  vector and spread over all graphs and nodes, is read at its channel c; the rectifier is the maximum with zero; and
  the reciprocal deviation is the reciprocal square root of the layer's variance row plus the printed epsilon.

  The three layers are one function of the layer's place i in the stacks and of the activations before it
  (`layerOps`): its entry is the normalised, rectified graph convolution of the previous activations' rows of graph b
  with slab i of every stacked parameter. Each of the reference's three layer results is that function, at i = 0, 1, 2,
  of the result before it; the whole result is the output projection of the last.
-/
import proofs.«103491_j5059471475382_2_alg».proof.Proof.Gen.ReferenceIdeal.Read
import Idealize.ShloMosaic.Lib.Pipeline.Value
import Idealize.ShloMosaic.Lib.ValueLayout
import Idealize.ShloMosaic.Lib.ValueIdx
import Idealize.ShloMosaic.PureOps.Ideal.Laws
import proofs.«103491_j5059471475382_2_alg».proof.Proof.LibSumContr
import proofs.«103491_j5059471475382_2_alg».proof.Proof.GraphNet

noncomputable section

namespace Cert.ReferenceIdeal.RefValue

open Cert.ReferenceIdeal Cert.ReferenceIdeal.Gen Cert.ReferenceIdeal.Read Idealize.ShloMosaic Idealize.ShloMosaic.ValueIdx GraphNet

/-! ## Layout operations read at coordinates -/

/-- A [1, 1, 512] array spread over all graphs and nodes is read at its channel. -/
theorem spread512 (y : FVec Ideal S1x1x512 .f32) (b : Fin 32) (n : Fin 1024) (c : Fin 512) :
    broadcastInDim S32x1024x512 ![0, 1, 2] bcast_S1x1x512_S32x1024x512_0_1_2 y (ix3 b n c) = y (ix3 (0 : Fin 1) (0 : Fin 1) c) :=
  broadcastInDim_apply _ bcast_S1x1x512_S32x1024x512_0_1_2 y _ _ (fun a => match a with
    | ⟨0, _⟩ => by show 0 = if (1 : Nat) = 1 then 0 else b.val; rw [if_pos rfl]
    | ⟨1, _⟩ => by show 0 = if (1 : Nat) = 1 then 0 else n.val; rw [if_pos rfl]
    | ⟨2, _⟩ => by show c.val = if (512 : Nat) = 1 then 0 else c.val; rw [if_neg (by decide)])

/-- A vector of 512 channels placed on the last axis of [1, 1, 512] keeps its entries. -/
theorem lift512 (y : FVec Ideal S512 .f32) (u v : Fin 1) (c : Fin 512) :
    broadcastInDim S1x1x512 ![2] bcast_S512_S1x1x512_2 y (ix3 u v c) = y (ix1 c) :=
  broadcastInDim_apply _ bcast_S512_S1x1x512_2 y _ _ (fun a => match a with
    | ⟨0, _⟩ => by show c.val = if (512 : Nat) = 1 then 0 else c.val; rw [if_neg (by decide)])

/-- The same two steps at the 256 output channels. -/
theorem spread256 (y : FVec Ideal S1x1x256 .f32) (b : Fin 32) (n : Fin 1024) (o : Fin 256) :
    broadcastInDim S32x1024x256 ![0, 1, 2] bcast_S1x1x256_S32x1024x256_0_1_2 y (ix3 b n o) = y (ix3 (0 : Fin 1) (0 : Fin 1) o) :=
  broadcastInDim_apply _ bcast_S1x1x256_S32x1024x256_0_1_2 y _ _ (fun a => match a with
    | ⟨0, _⟩ => by show 0 = if (1 : Nat) = 1 then 0 else b.val; rw [if_pos rfl]
    | ⟨1, _⟩ => by show 0 = if (1 : Nat) = 1 then 0 else n.val; rw [if_pos rfl]
    | ⟨2, _⟩ => by show o.val = if (256 : Nat) = 1 then 0 else o.val; rw [if_neg (by decide)])

theorem lift256 (y : FVec Ideal S256 .f32) (u v : Fin 1) (o : Fin 256) :
    broadcastInDim S1x1x256 ![2] bcast_S256_S1x1x256_2 y (ix3 u v o) = y (ix1 o) :=
  broadcastInDim_apply _ bcast_S256_S1x1x256_2 y _ _ (fun a => match a with
    | ⟨0, _⟩ => by show o.val = if (256 : Nat) = 1 then 0 else o.val; rw [if_neg (by decide)])

/-- The zero constant spread over all graphs, nodes and channels is zero everywhere. -/
theorem zero_spread (b : Fin 32) (n : Fin 1024) (c : Fin 512) :
    broadcastInDim S32x1024x512 ![] bcast_S_S32x1024x512 (constant (F := Ideal) S_ .f32 0x00000000#32) (ix3 b n c) = 0 :=
  (broadcastInDim_apply ![] bcast_S_S32x1024x512 _ _ ix0 (fun a => a.elim0)).trans Ideal.ofBits_zero_f32

/-- The epsilon constant spread over the 512 channels is its printed value at every channel. -/
theorem eps_spread (c : Fin 512) :
    broadcastInDim S512 ![] bcast_S_S512 (constant (F := Ideal) S_ .f32 0x3727C5AC#32) (ix1 c) = Ideal.ofBits .f32 0x3727C5AC#32 :=
  (broadcastInDim_apply ![] bcast_S_S512 _ _ ix0 (fun a => a.elim0)).trans rfl

/-- The host's reciprocal square root, entry by entry. -/
theorem host_rsqrt_apply {s : Shape} (x : FVec Ideal s .f32) (i : s.Idx) : Host.rsqrt x i = Ideal.rsqrt (x i) := rfl

/-- Row i of a stack of three rows of 512 channels, sliced out as [1, 512]. -/
theorem slice_row (i : ℕ) (hi : i < 3) (x : FVec Ideal S3x512 .f32) (h : S3x512.Slices ![i, 0] S1x512) (u : Fin 1) (c : Fin 512) :
    extractStridedSlice S1x512 ![i, 0] x h (ix2 u c) = x (ix2 (⟨i, hi⟩ : Fin 3) c) :=
  extractStridedSlice_apply ![i, 0] x h _ _ (fun a => match a with
    | ⟨0, _⟩ => by show i = i + u.val; have := u.isLt; omega
    | ⟨1, _⟩ => by show c.val = 0 + c.val; omega)

/-- Slab i of the stack of three weight matrices, sliced out as [1, 512, 512]. -/
theorem slice_slab (i : ℕ) (hi : i < 3) (x : FVec Ideal S3x512x512 .f32) (h : S3x512x512.Slices ![i, 0, 0] S1x512x512)
    (u : Fin 1) (k c : Fin 512) :
    extractStridedSlice S1x512x512 ![i, 0, 0] x h (ix3 u k c) = x (ix3 (⟨i, hi⟩ : Fin 3) k c) :=
  extractStridedSlice_apply ![i, 0, 0] x h _ _ (fun a => match a with
    | ⟨0, _⟩ => by show i = i + u.val; have := u.isLt; omega
    | ⟨1, _⟩ => by show k.val = 0 + k.val; omega
    | ⟨2, _⟩ => by show c.val = 0 + c.val; omega)

/-! ## The four products of the reference, entry by entry -/

/-- The input projection's product: a sum over the 128 features of row (b, n). -/
theorem dg_in (l : FVec Ideal S32x1024x128 .f32) (r : FVec Ideal S128x512 .f32) (b : Fin 32) (n : Fin 1024) (c : Fin 512) :
    Host.dotGeneral dot_S32x1024x128_S128x512_S32x1024x512_2_0_01_1_n_n none l r (ix3 b n c)
      = ∑ k : Fin 128, l (ix3 b n k) * r (ix2 k c) := by
  simp only [Host.dotGeneral]
  rw [Ideal.dotGeneral_apply]
  exact Cert.LibSumContr.sum_contr dot_S32x1024x128_S128x512_S32x1024x512_2_0_01_1_n_n 128 rfl rfl l r (ix3 b n c)
    (fun k => ix3 b n k) (fun k => ix2 k c)
    (fun k => funext fun a => Fin.ext (by
      match a with
      | ⟨0, _⟩ => exact lhs_main_v0_0 _ _
      | ⟨1, _⟩ => exact lhs_main_v0_1 _ _
      | ⟨2, _⟩ => exact (lhs_main_v0_2 _ _).trans (contrEquiv1_symm_val dot_S32x1024x128_S128x512_S32x1024x512_2_0_01_1_n_n 128 rfl rfl k)))
    (fun k => funext fun a => Fin.ext (by
      match a with
      | ⟨0, _⟩ => exact (rhs_main_v0_0 _ _).trans (contrEquiv1_symm_val dot_S32x1024x128_S128x512_S32x1024x512_2_0_01_1_n_n 128 rfl rfl k)
      | ⟨1, _⟩ => exact rhs_main_v0_1 _ _))

/-- A layer's product with its weight matrix: a sum over the 512 channels of row (b, n). -/
theorem dg_hw (l : FVec Ideal S32x1024x512 .f32) (r : FVec Ideal S512x512 .f32) (b : Fin 32) (n : Fin 1024) (c : Fin 512) :
    Host.dotGeneral dot_S32x1024x512_S512x512_S32x1024x512_2_0_01_1_n_n none l r (ix3 b n c)
      = ∑ k : Fin 512, l (ix3 b n k) * r (ix2 k c) := by
  simp only [Host.dotGeneral]
  rw [Ideal.dotGeneral_apply]
  exact Cert.LibSumContr.sum_contr dot_S32x1024x512_S512x512_S32x1024x512_2_0_01_1_n_n 512 rfl rfl l r (ix3 b n c)
    (fun k => ix3 b n k) (fun k => ix2 k c)
    (fun k => funext fun a => Fin.ext (by
      match a with
      | ⟨0, _⟩ => exact lhs_main_v6_0 _ _
      | ⟨1, _⟩ => exact lhs_main_v6_1 _ _
      | ⟨2, _⟩ => exact (lhs_main_v6_2 _ _).trans (contrEquiv1_symm_val dot_S32x1024x512_S512x512_S32x1024x512_2_0_01_1_n_n 512 rfl rfl k)))
    (fun k => funext fun a => Fin.ext (by
      match a with
      | ⟨0, _⟩ => exact (rhs_main_v6_0 _ _).trans (contrEquiv1_symm_val dot_S32x1024x512_S512x512_S32x1024x512_2_0_01_1_n_n 512 rfl rfl k)
      | ⟨1, _⟩ => exact rhs_main_v6_1 _ _))

/-- The batched product with the adjacency: a sum over the 1024 nodes of graph b. -/
theorem dg_adj (l : FVec Ideal S32x1024x1024 .f32) (r : FVec Ideal S32x1024x512 .f32) (b : Fin 32) (n : Fin 1024) (c : Fin 512) :
    Host.dotGeneral dot_S32x1024x1024_S32x1024x512_S32x1024x512_2_1_1_2_0_0 none l r (ix3 b n c)
      = ∑ k : Fin 1024, l (ix3 b n k) * r (ix3 b k c) := by
  simp only [Host.dotGeneral]
  rw [Ideal.dotGeneral_apply]
  exact Cert.LibSumContr.sum_contr dot_S32x1024x1024_S32x1024x512_S32x1024x512_2_1_1_2_0_0 1024 rfl rfl l r (ix3 b n c)
    (fun k => ix3 b n k) (fun k => ix3 b k c)
    (fun k => funext fun a => Fin.ext (by
      match a with
      | ⟨0, _⟩ => exact lhs_main_v7_0 _ _
      | ⟨1, _⟩ => exact lhs_main_v7_1 _ _
      | ⟨2, _⟩ => exact (lhs_main_v7_2 _ _).trans (contrEquiv1_symm_val dot_S32x1024x1024_S32x1024x512_S32x1024x512_2_1_1_2_0_0 1024 rfl rfl k)))
    (fun k => funext fun a => Fin.ext (by
      match a with
      | ⟨0, _⟩ => exact rhs_main_v7_0 _ _
      | ⟨1, _⟩ => exact (rhs_main_v7_1 _ _).trans (contrEquiv1_symm_val dot_S32x1024x1024_S32x1024x512_S32x1024x512_2_1_1_2_0_0 1024 rfl rfl k)
      | ⟨2, _⟩ => exact rhs_main_v7_2 _ _))

/-- The output projection's product: a sum over the 512 channels of row (b, n). -/
theorem dg_out (l : FVec Ideal S32x1024x512 .f32) (r : FVec Ideal S512x256 .f32) (b : Fin 32) (n : Fin 1024) (o : Fin 256) :
    Host.dotGeneral dot_S32x1024x512_S512x256_S32x1024x256_2_0_01_1_n_n none l r (ix3 b n o)
      = ∑ k : Fin 512, l (ix3 b n k) * r (ix2 k o) := by
  simp only [Host.dotGeneral]
  rw [Ideal.dotGeneral_apply]
  exact Cert.LibSumContr.sum_contr dot_S32x1024x512_S512x256_S32x1024x256_2_0_01_1_n_n 512 rfl rfl l r (ix3 b n o)
    (fun k => ix3 b n k) (fun k => ix2 k o)
    (fun k => funext fun a => Fin.ext (by
      match a with
      | ⟨0, _⟩ => exact lhs_main_v103_0 _ _
      | ⟨1, _⟩ => exact lhs_main_v103_1 _ _
      | ⟨2, _⟩ => exact (lhs_main_v103_2 _ _).trans (contrEquiv1_symm_val dot_S32x1024x512_S512x256_S32x1024x256_2_0_01_1_n_n 512 rfl rfl k)))
    (fun k => funext fun a => Fin.ext (by
      match a with
      | ⟨0, _⟩ => exact (rhs_main_v103_0 _ _).trans (contrEquiv1_symm_val dot_S32x1024x512_S512x256_S32x1024x256_2_0_01_1_n_n 512 rfl rfl k)
      | ⟨1, _⟩ => exact rhs_main_v103_1 _ _))

/-! ## One layer, as a function of its place in the stacks and of the activations before it -/

/-- Row i of a stacked [3, 512] parameter, spread over all graphs and nodes: sliced out, reshaped to a vector, placed on
    the last axis, broadcast. -/
def rowSpread (i : ℕ) (hR : S3x512.Slices ![i, 0] S1x512) (x : FVec Ideal S3x512 .f32) : FVec Ideal S32x1024x512 .f32 :=
  broadcastInDim S32x1024x512 ![0, 1, 2] bcast_S1x1x512_S32x1024x512_0_1_2
    (broadcastInDim S1x1x512 ![2] bcast_S512_S1x1x512_2
      (shapeCast S512 (extractStridedSlice S1x512 ![i, 0] x hR) shapeCasts_S1x512_S512))

theorem rowSpread_apply (i : ℕ) (hi : i < 3) (hR : S3x512.Slices ![i, 0] S1x512) (x : FVec Ideal S3x512 .f32)
    (b : Fin 32) (n : Fin 1024) (c : Fin 512) : rowSpread i hR x (ix3 b n c) = x (ix2 (⟨i, hi⟩ : Fin 3) c) := by
  unfold rowSpread
  rw [spread512, lift512, shapeCast_1a_a_apply, slice_row i hi]

/-- Layer i's operations, in the reference's order: the two products, the bias row, the rectifier, the mean row
    subtracted, the product with the reciprocal square root of the variance row plus epsilon, the product with the
    scale row, the shift row added. -/
def layerOps (i : ℕ) (hW : S3x512x512.Slices ![i, 0, 0] S1x512x512) (hR : S3x512.Slices ![i, 0] S1x512)
    (h : FVec Ideal S32x1024x512 .f32) (x1 : FVec Ideal S32x1024x1024 .f32) (x4 : FVec Ideal S3x512x512 .f32)
    (x5 x6 x7 x8 x9 : FVec Ideal S3x512 .f32) : FVec Ideal S32x1024x512 .f32 :=
  addf
    (mulf
      (mulf
        (subf
          (maximumf
            (addf
              (Host.dotGeneral dot_S32x1024x1024_S32x1024x512_S32x1024x512_2_1_1_2_0_0 none x1
                (Host.dotGeneral dot_S32x1024x512_S512x512_S32x1024x512_2_0_01_1_n_n none h
                  (shapeCast S512x512 (extractStridedSlice S1x512x512 ![i, 0, 0] x4 hW) shapeCasts_S1x512x512_S512x512)))
              (rowSpread i hR x5))
            (broadcastInDim S32x1024x512 ![] bcast_S_S32x1024x512 (constant S_ .f32 0x00000000#32)))
          (rowSpread i hR x8))
        (broadcastInDim S32x1024x512 ![0, 1, 2] bcast_S1x1x512_S32x1024x512_0_1_2
          (broadcastInDim S1x1x512 ![2] bcast_S512_S1x1x512_2
            (Host.rsqrt
              (addf (shapeCast S512 (extractStridedSlice S1x512 ![i, 0] x9 hR) shapeCasts_S1x512_S512)
                (broadcastInDim S512 ![] bcast_S_S512 (constant S_ .f32 0x3727C5AC#32)))))))
      (rowSpread i hR x6))
    (rowSpread i hR x7)

/-- Layer i, entry (b, n, c): the plain normalisation of the rectified graph convolution of the activations before it,
    on graph b's rows, with slab i of every stacked parameter. -/
theorem layerOps_apply (i : ℕ) (hi : i < 3) (hW : S3x512x512.Slices ![i, 0, 0] S1x512x512) (hR : S3x512.Slices ![i, 0] S1x512)
    (h : FVec Ideal S32x1024x512 .f32) (x1 : FVec Ideal S32x1024x1024 .f32) (x4 : FVec Ideal S3x512x512 .f32)
    (x5 x6 x7 x8 x9 : FVec Ideal S3x512 .f32) (b : Fin 32) (n : Fin 1024) (c : Fin 512) :
    layerOps i hW hR h x1 x4 x5 x6 x7 x8 x9 (ix3 b n c)
      = plainNorm (fun c => x6 (ix2 (⟨i, hi⟩ : Fin 3) c)) (fun c => x7 (ix2 (⟨i, hi⟩ : Fin 3) c)) (fun c => x8 (ix2 (⟨i, hi⟩ : Fin 3) c))
          (fun c => Ideal.rsqrt (x9 (ix2 (⟨i, hi⟩ : Fin 3) c) + Ideal.ofBits .f32 0x3727C5AC#32))
          (conv (fun n m => x1 (ix3 b n m)) (fun k c => x4 (ix3 (⟨i, hi⟩ : Fin 3) k c)) (fun c => x5 (ix2 (⟨i, hi⟩ : Fin 3) c))
            (fun m k => h (ix3 b m k))) n c := by
  unfold layerOps plainNorm conv
  simp only [addf_apply, mulf_apply, subf_apply, maximumf_apply, dg_adj, dg_hw, rowSpread_apply i hi, shapeCast_1ab_ab_apply,
    slice_slab i hi]
  rw [zero_spread, spread512, lift512, host_rsqrt_apply, addf_apply, shapeCast_1a_a_apply, slice_row i hi, eps_spread]

/-! ## The reference's stages -/

/-- The input projection, on graph b's rows. -/
theorem proj_in_apply (x0 : FVec Ideal S32x1024x128 .f32) (x2 : FVec Ideal S128x512 .f32) (x3 : FVec Ideal S512 .f32)
    (b : Fin 32) (n : Fin 1024) (c : Fin 512) :
    val_main_v3 (F := Ideal) x0 x2 x3 (ix3 b n c)
      = proj (fun n f => x0 (ix3 b n f)) (fun f c => x2 (ix2 f c)) (fun c => x3 (ix1 c)) n c := by
  unfold proj
  simp only [val_main_v3_apply, val_main_v0, val_main_v1, val_main_v2, dg_in, Ideal.addf_def]
  rw [spread512, lift512]

/-- The first layer's result is layer 0 of the input projection. -/
theorem v36_eq (x0 : FVec Ideal S32x1024x128 .f32) (x1 : FVec Ideal S32x1024x1024 .f32) (x2 : FVec Ideal S128x512 .f32)
    (x3 : FVec Ideal S512 .f32) (x4 : FVec Ideal S3x512x512 .f32) (x5 x6 x7 x8 x9 : FVec Ideal S3x512 .f32) :
    val_main_v36 (F := Ideal) x0 x1 x2 x3 x4 x5 x6 x7 x8 x9
      = layerOps 0 slices_S3x512x512_S1x512x512_0_0_0 slices_S3x512_S1x512_0_0 (val_main_v3 (F := Ideal) x0 x2 x3) x1 x4 x5 x6 x7 x8 x9 :=
  rfl

/-- The second layer's result is layer 1 of the first's. -/
theorem v69_eq (x0 : FVec Ideal S32x1024x128 .f32) (x1 : FVec Ideal S32x1024x1024 .f32) (x2 : FVec Ideal S128x512 .f32)
    (x3 : FVec Ideal S512 .f32) (x4 : FVec Ideal S3x512x512 .f32) (x5 x6 x7 x8 x9 : FVec Ideal S3x512 .f32) :
    val_main_v69 (F := Ideal) x0 x1 x2 x3 x4 x5 x6 x7 x8 x9
      = layerOps 1 slices_S3x512x512_S1x512x512_1_0_0 slices_S3x512_S1x512_1_0
          (val_main_v36 (F := Ideal) x0 x1 x2 x3 x4 x5 x6 x7 x8 x9) x1 x4 x5 x6 x7 x8 x9 :=
  rfl

/-- The third layer's result is layer 2 of the second's. -/
theorem v102_eq (x0 : FVec Ideal S32x1024x128 .f32) (x1 : FVec Ideal S32x1024x1024 .f32) (x2 : FVec Ideal S128x512 .f32)
    (x3 : FVec Ideal S512 .f32) (x4 : FVec Ideal S3x512x512 .f32) (x5 x6 x7 x8 x9 : FVec Ideal S3x512 .f32) :
    val_main_v102 (F := Ideal) x0 x1 x2 x3 x4 x5 x6 x7 x8 x9
      = layerOps 2 slices_S3x512x512_S1x512x512_2_0_0 slices_S3x512_S1x512_2_0
          (val_main_v69 (F := Ideal) x0 x1 x2 x3 x4 x5 x6 x7 x8 x9) x1 x4 x5 x6 x7 x8 x9 :=
  rfl

/-- The output projection of the last layer, on graph b's rows. -/
theorem proj_out_apply (x0 : FVec Ideal S32x1024x128 .f32) (x1 : FVec Ideal S32x1024x1024 .f32) (x2 : FVec Ideal S128x512 .f32)
    (x3 : FVec Ideal S512 .f32) (x4 : FVec Ideal S3x512x512 .f32) (x5 x6 x7 x8 x9 : FVec Ideal S3x512 .f32)
    (x10 : FVec Ideal S512x256 .f32) (x11 : FVec Ideal S256 .f32) (b : Fin 32) (n : Fin 1024) (o : Fin 256) :
    val_main_v106 (F := Ideal) x0 x1 x2 x3 x4 x5 x6 x7 x8 x9 x10 x11 (ix3 b n o)
      = proj (fun n k => val_main_v102 (F := Ideal) x0 x1 x2 x3 x4 x5 x6 x7 x8 x9 (ix3 b n k)) (fun k o => x10 (ix2 k o))
          (fun o => x11 (ix1 o)) n o := by
  unfold proj
  simp only [val_main_v106_apply, val_main_v103, val_main_v104, val_main_v105, dg_out, Ideal.addf_def]
  rw [spread256, lift256]

/-- The reference's result, entry (b, n, o): the plain network on graph b's rows. -/
theorem result_apply (x0 : FVec Ideal S32x1024x128 .f32) (x1 : FVec Ideal S32x1024x1024 .f32) (x2 : FVec Ideal S128x512 .f32)
    (x3 : FVec Ideal S512 .f32) (x4 : FVec Ideal S3x512x512 .f32) (x5 x6 x7 x8 x9 : FVec Ideal S3x512 .f32)
    (x10 : FVec Ideal S512x256 .f32) (x11 : FVec Ideal S256 .f32) (b : Fin 32) (n : Fin 1024) (o : Fin 256) :
    val_main_v106 (F := Ideal) x0 x1 x2 x3 x4 x5 x6 x7 x8 x9 x10 x11 (ix3 b n o)
      = netPlain (fun n f => x0 (ix3 b n f)) (fun n m => x1 (ix3 b n m)) (fun f c => x2 (ix2 f c)) (fun c => x3 (ix1 c))
          (fun i k c => x4 (ix3 i k c)) (fun i c => x5 (ix2 i c)) (fun i c => x6 (ix2 i c)) (fun i c => x7 (ix2 i c))
          (fun i c => x8 (ix2 i c)) (fun i c => Ideal.rsqrt (x9 (ix2 i c) + Ideal.ofBits .f32 0x3727C5AC#32))
          (fun k o => x10 (ix2 k o)) (fun o => x11 (ix1 o)) n o := by
  have e3 : (fun n k => val_main_v102 (F := Ideal) x0 x1 x2 x3 x4 x5 x6 x7 x8 x9 (ix3 b n k)) = _ :=
    funext fun n => funext fun k => by rw [v102_eq, layerOps_apply 2 (by decide)]
  have e2 : (fun m k => val_main_v69 (F := Ideal) x0 x1 x2 x3 x4 x5 x6 x7 x8 x9 (ix3 b m k)) = _ :=
    funext fun n => funext fun k => by rw [v69_eq, layerOps_apply 1 (by decide)]
  have e1 : (fun m k => val_main_v36 (F := Ideal) x0 x1 x2 x3 x4 x5 x6 x7 x8 x9 (ix3 b m k)) = _ :=
    funext fun n => funext fun k => by rw [v36_eq, layerOps_apply 0 (by decide)]
  have e0 : (fun m k => val_main_v3 (F := Ideal) x0 x2 x3 (ix3 b m k)) = _ :=
    funext fun n => funext fun k => proj_in_apply x0 x2 x3 b n k
  rw [proj_out_apply, e3, e2, e1, e0]
  rfl

end Cert.ReferenceIdeal.RefValue

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«103491_j5059471475382_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.PreFacts.lean ====
/-
  What the precondition says of the argument arrays: every entry of every array is a real number, and every entry of
  the running variances is nonnegative.

  The precondition is a conjunction of thirteen tests, each a reduction by `and` over a whole array: twelve of
  |x| < +∞ at every entry, one of x ≥ 0 at every entry of the variances (read one test at a time: LibFinitePre.lean).
  With the variances nonnegative and the printed epsilon a positive real, variance + epsilon is a positive real, so its
  reciprocal square root is a real: the one place the networks' arithmetic could have left the reals.
-/
import proofs.«103491_j5059471475382_2_alg».proof.Proof.Gen.Pre_finite_inputs
import proofs.«103491_j5059471475382_2_alg».proof.Proof.LibFinitePre

noncomputable section

namespace Cert.Pre_finite_inputs.Decode

open Cert.Pre_finite_inputs Idealize.ShloMosaic Idealize.ShloMosaic.ValueIdx Cert.LibRealEntries Cert.LibFinitePre

/-- The printed epsilon is a positive real (10995116 · 2⁻⁴⁰, the f32 nearest 1e-5). -/
theorem eps_real : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The precondition, decoded: every entry of the twelve arrays is real, and the variances are nonnegative. -/
theorem decode (a0 : FVec Ideal S32x1024x128 .f32) (a1 : FVec Ideal S32x1024x1024 .f32) (a2 : FVec Ideal S128x512 .f32)
    (a3 : FVec Ideal S512 .f32) (a4 : FVec Ideal S3x512x512 .f32) (a5 a6 a7 a8 a9 : FVec Ideal S3x512 .f32)
    (a10 : FVec Ideal S512x256 .f32) (a11 : FVec Ideal S256 .f32)
    (h : fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, 0 ≤ a9 i) := by
  have e := congrFun h ix0
  dsimp only [fn, fn_part1, fn_part2, fn_part3] at e
  simp only [andi, IntOp.andi_eq_one] at e
  obtain ⟨⟨⟨⟨⟨⟨⟨⟨⟨⟨⟨⟨h0, h1⟩, h2⟩, h3⟩, h4⟩, h5⟩, h6⟩, h7⟩, h8⟩, h9⟩, h10⟩, h11⟩, hge⟩ := e
  exact ⟨all_real a0 _ _ _ h0, all_real a1 _ _ _ h1, all_real a2 _ _ _ h2, all_real a3 _ _ _ h3, all_real a4 _ _ _ h4,
    all_real a5 _ _ _ h5, all_real a6 _ _ _ h6, all_real a7 _ _ _ h7, all_real a8 _ _ _ h8, all_real a9 _ _ _ h9,
    all_real a10 _ _ _ h10, all_real a11 _ _ _ h11, all_nonneg a9 _ _ _ hge⟩

/-- The reciprocal square root of a nonnegative real variance plus the printed epsilon is a real. -/
theorem rsqrt_real (v : EReal) (hv : IsReal v) (h0 : 0 ≤ v) : IsReal (Ideal.rsqrt (v + Ideal.ofBits .f32 0x3727C5AC#32)) := by
  obtain ⟨r, rfl⟩ := hv
  obtain ⟨e, he, hw⟩ := eps_real
  have hr : 0 ≤ r := EReal.coe_nonneg.1 h0
  rw [hw, ← EReal.coe_add, Ideal.rsqrt_coe, if_neg (by linarith), if_neg (by linarith)]
  exact ⟨_, rfl⟩

end Cert.Pre_finite_inputs.Decode

end
-- ==== Proof.lean ====
/-
  A three-layer graph network, one graph per grid point, against its batched reference: the kernel's result and the
  reference's are equal as extended reals, under the precondition that every argument entry is finite and the running
  variances are nonnegative.

  Both programs compute, for each of 32 graphs, the network of Proof/GraphNet.lean on that graph's rows: an input
  projection, three graph convolutions with rectifier and per-channel normalisation, an output projection. They
  differ in the normalisation only. The reference writes ((r − mean) · s) · γ + β with s the reciprocal square root of
  variance + ε; the kernel's program folds it, on the host, into a scale γ · s and a shift β − mean · (γ · s), and the
  kernel's body computes r · scale + shift. The kernel's value is read off its generated frame run and value leg
  (Proof/BodyValue.lean, Proof/BodyRun.lean, Proof/KernelBlocks.lean, Proof/KernelValue.lean), the reference's off its generated run, one
  operation at a time (Proof/RefValue.lean). The two spellings of the normalisation are one affine function of r on the
  reals, by distributivity; on the extended reals that law needs real entries, which the precondition supplies
  (Proof/PreFacts.lean): finite arguments are reals, a nonnegative variance plus the positive ε has a real reciprocal
  square root, and sums, products, differences and maxima of reals are reals, so every intermediate value of both
  networks is real and they agree entry by entry (Proof/GraphNet.lean).

  The three frame claims are the generated frame certificates (the reference's from its generated run); the ideal
  pass rewrote nothing, so the idealization claim is trivial.
-/
import proofs.«103491_j5059471475382_2_alg».proof.Defs
import proofs.«103491_j5059471475382_2_alg».proof.Proof.Gen.Kernel
import proofs.«103491_j5059471475382_2_alg».proof.Proof.Gen.Kernel.Skeleton
import proofs.«103491_j5059471475382_2_alg».proof.Proof.Gen.Kernel.Launch
import proofs.«103491_j5059471475382_2_alg».proof.Proof.Gen.Kernel.Points
import proofs.«103491_j5059471475382_2_alg».proof.Proof.Gen.Kernel.Frame
import proofs.«103491_j5059471475382_2_alg».proof.Proof.Gen.KernelIdeal
import proofs.«103491_j5059471475382_2_alg».proof.Proof.Gen.KernelIdeal.Skeleton
import proofs.«103491_j5059471475382_2_alg».proof.Proof.Gen.KernelIdeal.Launch
import proofs.«103491_j5059471475382_2_alg».proof.Proof.Gen.KernelIdeal.Points
import proofs.«103491_j5059471475382_2_alg».proof.Proof.Gen.KernelIdeal.Frame
import proofs.«103491_j5059471475382_2_alg».proof.Proof.Gen.KernelIdeal.Value
import proofs.«103491_j5059471475382_2_alg».proof.Proof.Gen.ReferenceIdeal
import proofs.«103491_j5059471475382_2_alg».proof.Proof.Gen.ReferenceIdeal.Run
import proofs.«103491_j5059471475382_2_alg».proof.Proof.Gen.ReferenceIdeal.Read
import proofs.«103491_j5059471475382_2_alg».proof.Proof.Gen.Pre_finite_inputs
import proofs.«103491_j5059471475382_2_alg».proof.Proof.KernelValue
import proofs.«103491_j5059471475382_2_alg».proof.Proof.RefValue
import proofs.«103491_j5059471475382_2_alg».proof.Proof.PreFacts
import Idealize.ShloMosaic.Adequacy
import Idealize.ShloMosaic.Init

noncomputable section

namespace Cert.Proof

open Idealize.ShloMosaic Idealize.ShloMosaic.ValueIdx Idealize.SL.Sem GraphNet

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both programs run, leave the arguments unchanged, and end with one result
    array: at (b, n, o) the kernel's is the folded network and the reference's the plain network on graph b's rows,
    equal because under the precondition every argument entry is real and the variances are nonnegative. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v106_eq, a0, a1, a2, a3, a4, a5, a6, a7, a8, a9, a10, a11]
  obtain ⟨h0, h1, h2, h3, h4, h5, h6, h7, h8, h9, h10, h11, hge⟩ :=
    Cert.Pre_finite_inputs.Decode.decode _ _ _ _ _ _ _ _ _ _ _ _ (hpre c)
  funext i
  obtain ⟨b, n, o, rfl⟩ : ∃ (b : Fin 32) (n : Fin 1024) (o : Fin 256), i = ix3 b n o := ⟨i 0, i 1, i 2, eq_ix3 i⟩
  rw [Cert.ReferenceIdeal.RefValue.result_apply]
  show _ = Cert.KernelIdeal.Whole.net m c b n o
  unfold Cert.KernelIdeal.Whole.net
  exact (congrFun (congrFun (netFolded_eq_netPlain _ _ (fun n f => h0 _) (fun n k => h1 _) (fun f k => h2 _) (fun k => h3 _)
    (fun l k j => h4 _) (fun l k => h5 _) (fun l k => h6 _) (fun l k => h7 _) (fun l k => h8 _)
    (fun l k => Cert.Pre_finite_inputs.Decode.rsqrt_real _ (h9 _) (hge _))) n) o).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
